-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x4800000 : Shape := ⟨2, ![2, 4800000]⟩
abbrev S4800000 : Shape := ⟨1, ![4800000]⟩
abbrev S1x16 : Shape := ⟨2, ![1, 16]⟩
abbrev S16 : Shape := ⟨1, ![16]⟩
abbrev S16x10 : Shape := ⟨2, ![16, 10]⟩
abbrev S10 : Shape := ⟨1, ![10]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S4800000 : S_.BroadcastsInDim S4800000 (![] : Fin 0 → Fin S4800000.rank)
  reducesTo_S4800000_S_d0 : S4800000.ReducesTo [0] S_
  bcast_S_S1x16 : S_.BroadcastsInDim S1x16 (![] : Fin 0 → Fin S1x16.rank)
  reducesTo_S1x16_S_d0_1 : S1x16.ReducesTo [0, 1] S_
  bcast_S_S16 : S_.BroadcastsInDim S16 (![] : Fin 0 → Fin S16.rank)
  reducesTo_S16_S_d0 : S16.ReducesTo [0] S_
  bcast_S_S16x10 : S_.BroadcastsInDim S16x10 (![] : Fin 0 → Fin S16x10.rank)
  reducesTo_S16x10_S_d0_1 : S16x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S16x10 .f32) (main_arg6 : FVec F S10 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x10 .f32 := Host.absf main_arg5
  let main_cst_6 : FVec F S_ .f32 := constant S_ .f32 0x7F800000#32
  let main_v20 : FVec F S16x10 .f32 := broadcastInDim S16x10 ![] bcast_S_S16x10 main_cst_6
  let main_v21 : IVec S16x10 1 := cmpf .olt main_v19 main_v20
  let main_c_7 : IVec S_ 1 := constantI S_ 1 1#1
  let main_v22 : IVec S_ 1 := (fun x v => Host.reduce IntOp.andi x v reducesTo_S16x10_S_d0_1 h_S_) main_v21 main_c_7
  let main_v23 : IVec S_ 1 := andi main_v18 main_v22
  let main_v24 : FVec F S10 .f32 := Host.absf main_arg6
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  main_v28

def fn {F : FTy → Type} [FloatOps F] (main_arg0 : FVec F S100000x1 .f32) (main_arg1 : IVec S2x4800000 32) (main_arg2 : FVec F S4800000 .f32) (main_arg3 : FVec F S1x16 .f32) (main_arg4 : FVec F S16 .f32) (main_arg5 : FVec F S16x10 .f32) (main_arg6 : FVec F S10 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S4800000 .f32 := Host.absf main_arg2
  let main_cst_0 : FVec F S_ .f32 := constant S_ .f32 0x7F800000#32
  let main_v5 : FVec F S4800000 .f32 := broadcastInDim S4800000 ![] bcast_S_S4800000 main_cst_0
  let main_v6 : IVec S4800000 1 := cmpf .olt main_v4 main_v5
  let main_c_1 : IVec S_ 1 := constantI S_ 1 1#1
  let main_v7 : IVec S_ 1 := (fun x v => Host.reduce IntOp.andi x v reducesTo_S4800000_S_d0 h_S_) main_v6 main_c_1
  let main_v8 : IVec S_ 1 := andi main_v3 main_v7
  let main_v9 : FVec F S1x16 .f32 := Host.absf main_arg3
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_v13 main_v16
-- ==== Kernel.lean ====
abbrev S100000x1 : Shape := ⟨2, ![100000, 1]⟩
abbrev S2x4800000 : Shape := ⟨2, ![2, 4800000]⟩
abbrev S4800000 : Shape := ⟨1, ![4800000]⟩
abbrev S1x16 : Shape := ⟨2, ![1, 16]⟩
abbrev S16 : Shape := ⟨1, ![16]⟩
abbrev S16x10 : Shape := ⟨2, ![16, 10]⟩
abbrev S10 : Shape := ⟨1, ![10]⟩
abbrev S1x4800000 : Shape := ⟨2, ![1, 4800000]⟩
abbrev S_ : Shape := ⟨0, ![]⟩
abbrev S100000 : Shape := ⟨1, ![100000]⟩
abbrev S4800000x1 : Shape := ⟨2, ![4800000, 1]⟩
abbrev S100000x16 : Shape := ⟨2, ![100000, 16]⟩
abbrev S5000x1 : Shape := ⟨2, ![5000, 1]⟩
abbrev S5000x16 : Shape := ⟨2, ![5000, 16]⟩
abbrev S4800000x16 : Shape := ⟨2, ![4800000, 16]⟩
abbrev S12000x1 : Shape := ⟨2, ![12000, 1]⟩
abbrev S12000x16 : Shape := ⟨2, ![12000, 16]⟩
abbrev S100000x10 : Shape := ⟨2, ![100000, 10]⟩
abbrev S5000x10 : Shape := ⟨2, ![5000, 10]⟩
abbrev S4800000x10 : Shape := ⟨2, ![4800000, 10]⟩
abbrev S12000x10 : Shape := ⟨2, ![12000, 10]⟩
abbrev S1x10 : Shape := ⟨2, ![1, 10]⟩

abbrev nBuf : Space → Nat
  | .hbm => 82
  | .vmem => 40
  | .smem => 0
  | _ => 0

abbrev bufTy : (tb : Table) → Fin (tcTables nBuf tb) → BufTy
  | .hbm, ⟨0, _⟩ => ⟨S100000x1, .f32⟩
  | .hbm, ⟨1, _⟩ => ⟨S2x4800000, .i32⟩
  | .hbm, ⟨2, _⟩ => ⟨S4800000, .f32⟩
  | .hbm, ⟨3, _⟩ => ⟨S1x16, .f32⟩
  | .hbm, ⟨4, _⟩ => ⟨S16, .f32⟩
  | .hbm, ⟨5, _⟩ => ⟨S16x10, .f32⟩
  | .hbm, ⟨6, _⟩ => ⟨S10, .f32⟩
  | .hbm, ⟨7, _⟩ => ⟨S1x4800000, .i32⟩
  | .hbm, ⟨8, _⟩ => ⟨S4800000, .i32⟩
  | .hbm, ⟨9, _⟩ => ⟨S1x4800000, .i32⟩
  | .hbm, ⟨10, _⟩ => ⟨S4800000, .i32⟩
  | .hbm, ⟨11, _⟩ => ⟨S_, .f32⟩
  | .hbm, ⟨12, _⟩ => ⟨S100000, .f32⟩
  | .hbm, ⟨13, _⟩ => ⟨S4800000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S4800000, .i32⟩
  | .hbm, ⟨29, _⟩ => ⟨S4800000, .i1⟩
  | .hbm, ⟨30, _⟩ => ⟨S_, .i32⟩
  | .hbm, ⟨31, _⟩ => ⟨S4800000, .i32⟩
  | .hbm, ⟨32, _⟩ => ⟨S4800000, .i32⟩
  | .hbm, ⟨33, _⟩ => ⟨S4800000, .i32⟩
  | .hbm, ⟨34, _⟩ => ⟨S4800000x1, .i32⟩
  | .hbm, ⟨35, _⟩ => ⟨S4800000, .f32⟩
  | .hbm, ⟨36, _⟩ => ⟨S4800000, .f32⟩
  | .hbm, ⟨37, _⟩ => ⟨S_, .i32⟩
  | .hbm, ⟨38, _⟩ => ⟨S4800000, .i32⟩
  | .hbm, ⟨39, _⟩ => ⟨S4800000, .i1⟩
  | .hbm, ⟨40, _⟩ => ⟨S_, .i32⟩
  | .hbm, ⟨41, _⟩ => ⟨S4800000, .i32⟩
  | .hbm, ⟨42, _⟩ => ⟨S4800000, .i32⟩
  | .hbm, ⟨43, _⟩ => ⟨S4800000, .i32⟩
  | .hbm, ⟨44, _⟩ => ⟨S4800000x1, .i32⟩
  | .hbm, ⟨45, _⟩ => ⟨S4800000, .f32⟩
  | .hbm, ⟨46, _⟩ => ⟨S4800000, .f32⟩
  | .hbm, ⟨47, _⟩ => ⟨S4800000x1, .f32⟩
  | .hbm, ⟨48, _⟩ => ⟨S100000x16, .f32⟩
  | .hbm, ⟨49, _⟩ => ⟨S_, .i32⟩
  | .hbm, ⟨50, _⟩ => ⟨S4800000, .i32⟩
  | .hbm, ⟨51, _⟩ => ⟨S4800000, .i1⟩
  | .hbm, ⟨52, _⟩ => ⟨S_, .i32⟩
  | .hbm, ⟨53, _⟩ => ⟨S4800000, .i32⟩
  | .hbm, ⟨54, _⟩ => ⟨S4800000, .i32⟩
  | .hbm, ⟨55, _⟩ => ⟨S4800000, .i32⟩
  | .hbm, ⟨56, _⟩ => ⟨S4800000x1, .i32⟩
  | .hbm, ⟨57, _⟩ => ⟨S4800000x16, .f32⟩
  | .hbm, ⟨58, _⟩ => ⟨S4800000x16, .f32⟩
  | .hbm, ⟨59, _⟩ => ⟨S_, .f32⟩
  | .hbm, ⟨60, _⟩ => ⟨S100000x16, .f32⟩
  | .hbm, ⟨61, _⟩ => ⟨S4800000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x10, .f32⟩
  | .hbm, ⟨66, _⟩ => ⟨S_, .i32⟩
  | .hbm, ⟨67, _⟩ => ⟨S4800000, .i32⟩
  | .hbm, ⟨68, _⟩ => ⟨S4800000, .i1⟩
  | .hbm, ⟨69, _⟩ => ⟨S_, .i32⟩
  | .hbm, ⟨70, _⟩ => ⟨S4800000, .i32⟩
  | .hbm, ⟨71, _⟩ => ⟨S4800000, .i32⟩
  | .hbm, ⟨72, _⟩ => ⟨S4800000, .i32⟩
  | .hbm, ⟨73, _⟩ => ⟨S4800000x1, .i32⟩
  | .hbm, ⟨74, _⟩ => ⟨S4800000x10, .f32⟩
  | .hbm, ⟨75, _⟩ => ⟨S4800000x10, .f32⟩
  | .hbm, ⟨76, _⟩ => ⟨S_, .f32⟩
  | .hbm, ⟨77, _⟩ => ⟨S100000x10, .f32⟩
  | .hbm, ⟨78, _⟩ => ⟨S4800000x1, .i32⟩
  | .hbm, ⟨79, _⟩ => ⟨S100000x10, .f32⟩
  | .hbm, ⟨80, _⟩ => ⟨S1x10, .f32⟩
  | .hbm, ⟨81, _⟩ => ⟨S100000x10, .f32⟩
  | .local _ .vmem, ⟨0, _⟩ => ⟨S5000x1, .f32⟩
  | .local _ .vmem, ⟨1, _⟩ => ⟨S5000x1, .f32⟩
  | .local _ .vmem, ⟨2, _⟩ => ⟨S1x16, .f32⟩
  | .local _ .vmem, ⟨3, _⟩ => ⟨S5000x16, .f32⟩
  | .local _ .vmem, ⟨4, _⟩ => ⟨S5000x16, .f32⟩
  | .local _ .vmem, ⟨5, _⟩ => ⟨S12000x1, .f32⟩
  | .local _ .vmem, ⟨6, _⟩ => ⟨S12000x1, .f32⟩
  | .local _ .vmem, ⟨7, _⟩ => ⟨S12000x16, .f32⟩
  | .local _ .vmem, ⟨8, _⟩ => ⟨S12000x16, .f32⟩
  | .local _ .vmem, ⟨9, _⟩ => ⟨S12000x16, .f32⟩
  | .local _ .vmem, ⟨10, _⟩ => ⟨S12000x16, .f32⟩
  | .local _ .vmem, ⟨11, _⟩ => ⟨S5000x16, .f32⟩
  | .local _ .vmem, ⟨12, _⟩ => ⟨S5000x16, .f32⟩
  | .local _ .vmem, ⟨13, _⟩ => ⟨S5000x16, .f32⟩
  | .local _ .vmem, ⟨14, _⟩ => ⟨S5000x16, .f32⟩
  | .local _ .vmem, ⟨15, _⟩ => ⟨S5000x1, .f32⟩
  | .local _ .vmem, ⟨16, _⟩ => ⟨S5000x1, .f32⟩
  | .local _ .vmem, ⟨17, _⟩ => ⟨S1x16, .f32⟩
  | .local _ .vmem, ⟨18, _⟩ => ⟨S5000x16, .f32⟩
  | .local _ .vmem, ⟨19, _⟩ => ⟨S5000x16, .f32⟩
  | .local _ .vmem, ⟨20, _⟩ => ⟨S5000x16, .f32⟩
  | .local _ .vmem, ⟨21, _⟩ => ⟨S5000x16, .f32⟩
  | .local _ .vmem, ⟨22, _⟩ => ⟨S16x10, .f32⟩
  | .local _ .vmem, ⟨23, _⟩ => ⟨S5000x10, .f32⟩
  | .local _ .vmem, ⟨24, _⟩ => ⟨S5000x10, .f32⟩
  | .local _ .vmem, ⟨25, _⟩ => ⟨S12000x1, .f32⟩
  | .local _ .vmem, ⟨26, _⟩ => ⟨S12000x1, .f32⟩
  | .local _ .vmem, ⟨27, _⟩ => ⟨S12000x10, .f32⟩
  | .local _ .vmem, ⟨28, _⟩ => ⟨S12000x10, .f32⟩
  | .local _ .vmem, ⟨29, _⟩ => ⟨S12000x10, .f32⟩
  | .local _ .vmem, ⟨30, _⟩ => ⟨S12000x10, .f32⟩
  | .local _ .vmem, ⟨31, _⟩ => ⟨S5000x10, .f32⟩
  | .local _ .vmem, ⟨32, _⟩ => ⟨S5000x10, .f32⟩
  | .local _ .vmem, ⟨33, _⟩ => ⟨S5000x10, .f32⟩
  | .local _ .vmem, ⟨34, _⟩ => ⟨S5000x10, .f32⟩
  | .local _ .vmem, ⟨35, _⟩ => ⟨S5000x1, .f32⟩
  | .local _ .vmem, ⟨36, _⟩ => ⟨S5000x1, .f32⟩
  | .local _ .vmem, ⟨37, _⟩ => ⟨S1x10, .f32⟩
  | .local _ .vmem, ⟨38, _⟩ => ⟨S5000x10, .f32⟩
  | .local _ .vmem, ⟨39, _⟩ => ⟨S5000x10, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_9 : Ref sig .tc := ⟨.hbm, 66, rfl⟩
abbrev main_v46 : Ref sig .tc := ⟨.hbm, 67, rfl⟩
abbrev main_v47 : Ref sig .tc := ⟨.hbm, 68, rfl⟩
abbrev main_c_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg2_1 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg4_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem2_1 : DmaSem sig := 36
abbrev cc5_sem3_0 : DmaSem sig := 37
abbrev cc5_sem4_0 : DmaSem sig := 38
abbrev cc5_sem4_1 : DmaSem sig := 39

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S12000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S12000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S12000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x10 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x10 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![400], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S12000x1 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S12000x10 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S12000x10 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x10 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x10 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x10 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x10 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x4800000_S1x4800000_0_0 : S2x4800000.Slices ![0, 0] S1x4800000
  shapeCasts_S1x4800000_S4800000 : S1x4800000.ShapeCasts S4800000
  slices_S2x4800000_S1x4800000_1_0 : S2x4800000.Slices ![1, 0] S1x4800000
  bcast_S_S100000 : S_.BroadcastsInDim S100000 (![] : Fin 0 → Fin S100000.rank)
  bcast_S4800000_S4800000x1_0 : S4800000.BroadcastsInDim S4800000x1 (![0] : Fin 1 → Fin S4800000x1.rank)
  bcast_S100000_S100000x1_0 : S100000.BroadcastsInDim S100000x1 (![0] : Fin 1 → Fin S100000x1.rank)
  bcast_S_S4800000 : S_.BroadcastsInDim S4800000 (![] : Fin 0 → Fin S4800000.rank)
  inb_S5000x1_S5000x1_0_0 : ∀ a, (![0, 0] : Fin 2 → Nat) a + S5000x1.size a ≤ S5000x1.size a
  h_S5000x1 : 0 < S5000x1.numel
  inb_S1x16_S1x16_0_0 : ∀ a, (![0, 0] : Fin 2 → Nat) a + S1x16.size a ≤ S1x16.size a
  h_S1x16 : 0 < S1x16.numel
  inb_S5000x16_S5000x16_0_0 : ∀ a, (![0, 0] : Fin 2 → Nat) a + S5000x16.size a ≤ S5000x16.size a
  h_S5000x16 : 0 < S5000x16.numel
  inb_S12000x1_S12000x1_0_0 : ∀ a, (![0, 0] : Fin 2 → Nat) a + S12000x1.size a ≤ S12000x1.size a
  h_S12000x1 : 0 < S12000x1.numel
  shapeCasts_S12000x1_S12000x1 : S12000x1.ShapeCasts S12000x1
  inb_S12000x16_S12000x16_0_0 : ∀ a, (![0, 0] : Fin 2 → Nat) a + S12000x16.size a ≤ S12000x16.size a
  h_S12000x16 : 0 < S12000x16.numel
  shapeCasts_S12000x16_S12000x16 : S12000x16.ShapeCasts S12000x16
  broadcasts_S12000x1_S12000x16 : S12000x1.Broadcasts S12000x16
  bcast_S_S100000x16 : S_.BroadcastsInDim S100000x16 (![] : Fin 0 → Fin S100000x16.rank)
  shapeCasts_S16_S1x16 : S16.ShapeCasts S1x16
  shapeCasts_S5000x1_S5000x1 : S5000x1.ShapeCasts S5000x1
  shapeCasts_S5000x16_S5000x16 : S5000x16.ShapeCasts S5000x16
  broadcasts_S5000x1_S5000x16 : S5000x1.Broadcasts S5000x16
  shapeCasts_S1x16_S1x16 : S1x16.ShapeCasts S1x16
  broadcasts_S1x16_S5000x16 : S1x16.Broadcasts S5000x16
  inb_S16x10_S16x10_0_0 : ∀ a, (![0, 0] : Fin 2 → Nat) a + S16x10.size a ≤ S16x10.size a
  h_S16x10 : 0 < S16x10.numel
  inb_S5000x10_S5000x10_0_0 : ∀ a, (![0, 0] : Fin 2 → Nat) a + S5000x10.size a ≤ S5000x10.size a
  h_S5000x10 : 0 < S5000x10.numel
  inb_S12000x10_S12000x10_0_0 : ∀ a, (![0, 0] : Fin 2 → Nat) a + S12000x10.size a ≤ S12000x10.size a
  h_S12000x10 : 0 < S12000x10.numel
  shapeCasts_S12000x10_S12000x10 : S12000x10.ShapeCasts S12000x10
  broadcasts_S12000x1_S12000x10 : S12000x1.Broadcasts S12000x10
  bcast_S_S100000x10 : S_.BroadcastsInDim S100000x10 (![] : Fin 0 → Fin S100000x10.rank)
  shapeCasts_S10_S1x10 : S10.ShapeCasts S1x10
  shapeCasts_S5000x10_S5000x10 : S5000x10.ShapeCasts S5000x10
  broadcasts_S5000x1_S5000x10 : S5000x1.Broadcasts S5000x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  scatter_S100000_S4800000x1_S4800000_n_0_0_1_wf : ScatterDims.WF S100000 S4800000x1 S4800000 [] [0] [0] 1
  gather_S100000_S4800000x1_S4800000_n_0_n_n_0_1_1_wf : GatherDims.WF S100000 S4800000x1 S4800000 [] [0] [] [0] [] 1 ![1]
  dot_S5000x1_S1x16_S5000x16_1_0_0_1_n_n_wf : DotDims.WF S5000x1 S1x16 S5000x16 [1] [0] [0] [1] [] []
  gather_S100000x16_S4800000x1_S4800000x16_1_0_n_n_0_1_116_wf : GatherDims.WF S100000x16 S4800000x1 S4800000x16 [1] [0] [] [0] [] 1 ![1, 16]
  scatter_S100000x16_S4800000x1_S4800000x16_1_0_0_1_wf : ScatterDims.WF S100000x16 S4800000x1 S4800000x16 [1] [0] [0] 1
  dot_S5000x16_S16x10_S5000x10_1_0_0_1_n_n_wf : DotDims.WF S5000x16 S16x10 S5000x10 [1] [0] [0] [1] [] []
  gather_S100000x10_S4800000x1_S4800000x10_1_0_n_n_0_1_110_wf : GatherDims.WF S100000x10 S4800000x1 S4800000x10 [1] [0] [] [0] [] 1 ![1, 10]
  scatter_S100000x10_S4800000x1_S4800000x10_1_0_0_1_wf : ScatterDims.WF S100000x10 S4800000x1 S4800000x10 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S100000x1.size a
  hwx0_0 : ∀ i : grid0.Coords, EltTy.bits .f32 = 32 ∨ (Rect.block (s := S100000x1) S5000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16.size a ≤ S1x16.size a
  hwx0_1 : ∀ i : grid0.Coords, EltTy.bits .f32 = 32 ∨ (Rect.block (s := S1x16) S1x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S12000x1.size a ≤ S4800000x1.size a
  hwx1_0 : ∀ i : grid1.Coords, EltTy.bits .f32 = 32 ∨ (Rect.block (s := S4800000x1) S12000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S12000x16.size a ≤ S4800000x16.size a
  hwx1_1 : ∀ i : grid1.Coords, EltTy.bits .f32 = 32 ∨ (Rect.block (s := S4800000x16) S12000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S12000x16.size a ≤ S4800000x16.size a
  hwx1_2 : ∀ i : grid1.Coords, EltTy.bits .f32 = 32 ∨ (Rect.block (s := S4800000x16) S12000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x16.size a ≤ S100000x16.size a
  hwx2_1 : ∀ i : grid2.Coords, EltTy.bits .f32 = 32 ∨ (Rect.block (s := S100000x16) S5000x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x16.size a ≤ S100000x16.size a
  hwx2_4 : ∀ i : grid2.Coords, EltTy.bits .f32 = 32 ∨ (Rect.block (s := S100000x16) S5000x16.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S100000x16.size a
  hwx3_0 : ∀ i : grid3.Coords, EltTy.bits .f32 = 32 ∨ (Rect.block (s := S100000x16) S5000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x10.size a ≤ S16x10.size a
  hwx3_1 : ∀ i : grid3.Coords, EltTy.bits .f32 = 32 ∨ (Rect.block (s := S16x10) S16x10.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x10.size a ≤ S100000x10.size a
  hwx3_2 : ∀ i : grid3.Coords, EltTy.bits .f32 = 32 ∨ (Rect.block (s := S100000x10) S5000x10.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S12000x1.size a ≤ S4800000x1.size a
  hwx4_0 : ∀ i : grid4.Coords, EltTy.bits .f32 = 32 ∨ (Rect.block (s := S4800000x1) S12000x1.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S12000x10.size a ≤ S4800000x10.size a
  hwx4_1 : ∀ i : grid4.Coords, EltTy.bits .f32 = 32 ∨ (Rect.block (s := S4800000x10) S12000x10.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S12000x10.size a ≤ S4800000x10.size a
  hwx4_2 : ∀ i : grid4.Coords, EltTy.bits .f32 = 32 ∨ (Rect.block (s := S4800000x10) S12000x10.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x10.size a ≤ S100000x10.size a
  hwx5_0 : ∀ i : grid5.Coords, EltTy.bits .f32 = 32 ∨ (Rect.block (s := S100000x10) S5000x10.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x10.size a ≤ S100000x10.size a
  hwx5_1 : ∀ i : grid5.Coords, EltTy.bits .f32 = 32 ∨ (Rect.block (s := S100000x10) S5000x10.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x10.size a ≤ S1x10.size a
  hwx5_3 : ∀ i : grid5.Coords, EltTy.bits .f32 = 32 ∨ (Rect.block (s := S1x10) S1x10.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x10.size a ≤ S100000x10.size a
  hwx5_4 : ∀ i : grid5.Coords, EltTy.bits .f32 = 32 ∨ (Rect.block (s := S100000x10) S5000x10.size (cc5_transform_4 i) (hinb5_4 i)).WholeWords (EltTy.packing .f32)

variable [Facts₀]

def scatter_S100000_S4800000x1_S4800000_n_0_0_1 : ScatterDims S100000 S4800000x1 S4800000 where
  updateWindowDims := []
  insertedWindowDims := [0]
  scatterDimsToOperandDims := [0]
  indexVectorDim := 1
  wf := scatter_S100000_S4800000x1_S4800000_n_0_0_1_wf
def gather_S100000_S4800000x1_S4800000_n_0_n_n_0_1_1 : GatherDims S100000 S4800000x1 S4800000 where
  offsetDims := []
  collapsedSliceDims := [0]
  operandBatchingDims := []
  startIndicesBatchingDims := []
  startIndexMap := [0]
  indexVectorDim := 1
  sliceSizes := ![1]
  wf := gather_S100000_S4800000x1_S4800000_n_0_n_n_0_1_1_wf
def dot_S5000x1_S1x16_S5000x16_1_0_0_1_n_n : DotDims S5000x1 S1x16 S5000x16 where
  lhsContracting := [1]
  rhsContracting := [0]
  lhsNonContracting := [0]
  rhsNonContracting := [1]
  lhsBatch := []
  rhsBatch := []
  wf := dot_S5000x1_S1x16_S5000x16_1_0_0_1_n_n_wf
def gather_S100000x16_S4800000x1_S4800000x16_1_0_n_n_0_1_116 : GatherDims S100000x16 S4800000x1 S4800000x16 where
  offsetDims := [1]
  collapsedSliceDims := [0]
  operandBatchingDims := []
  startIndicesBatchingDims := []
  startIndexMap := [0]
  indexVectorDim := 1
  sliceSizes := ![1, 16]
  wf := gather_S100000x16_S4800000x1_S4800000x16_1_0_n_n_0_1_116_wf
def scatter_S100000x16_S4800000x1_S4800000x16_1_0_0_1 : ScatterDims S100000x16 S4800000x1 S4800000x16 where
  updateWindowDims := [1]
  insertedWindowDims := [0]
  scatterDimsToOperandDims := [0]
  indexVectorDim := 1
  wf := scatter_S100000x16_S4800000x1_S4800000x16_1_0_0_1_wf
def dot_S5000x16_S16x10_S5000x10_1_0_0_1_n_n : DotDims S5000x16 S16x10 S5000x10 where
  lhsContracting := [1]
  rhsContracting := [0]
  lhsNonContracting := [0]
  rhsNonContracting := [1]
  lhsBatch := []
  rhsBatch := []
  wf := dot_S5000x16_S16x10_S5000x10_1_0_0_1_n_n_wf
def gather_S100000x10_S4800000x1_S4800000x10_1_0_n_n_0_1_110 : GatherDims S100000x10 S4800000x1 S4800000x10 where
  offsetDims := [1]
  collapsedSliceDims := [0]
  operandBatchingDims := []
  startIndicesBatchingDims := []
  startIndexMap := [0]
  indexVectorDim := 1
  sliceSizes := ![1, 10]
  wf := gather_S100000x10_S4800000x1_S4800000x10_1_0_n_n_0_1_110_wf
def scatter_S100000x10_S4800000x1_S4800000x10_1_0_0_1 : ScatterDims S100000x10 S4800000x1 S4800000x10 where
  updateWindowDims := [1]
  insertedWindowDims := [0]
  scatterDimsToOperandDims := [0]
  indexVectorDim := 1
  wf := scatter_S100000x10_S4800000x1_S4800000x10_1_0_0_1_wf

abbrev win0_0 : Pipeline.Window sig grid0 :=
  Pipeline.Window.ofSpec (Memref.whole main_arg0) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v30) S12000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S12000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S12000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S5000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v43) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S5000x16.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v44) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S16x10.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S5000x10.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v30) S12000x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v52) S12000x10.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v53) S12000x10.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v56) S5000x10.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v45) S5000x10.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v13) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v57) S1x10.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v58) S5000x10.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x1 : Shape := ⟨2, ![100000, 1]⟩
abbrev S2x4800000 : Shape := ⟨2, ![2, 4800000]⟩
abbrev S4800000 : Shape := ⟨1, ![4800000]⟩
abbrev S1x16 : Shape := ⟨2, ![1, 16]⟩
abbrev S16 : Shape := ⟨1, ![16]⟩
abbrev S16x10 : Shape := ⟨2, ![16, 10]⟩
abbrev S10 : Shape := ⟨1, ![10]⟩
abbrev S100000x16 : Shape := ⟨2, ![100000, 16]⟩
abbrev S1x4800000 : Shape := ⟨2, ![1, 4800000]⟩
abbrev S_ : Shape := ⟨0, ![]⟩
abbrev S100000 : Shape := ⟨1, ![100000]⟩
abbrev S4800000x1 : Shape := ⟨2, ![4800000, 1]⟩
abbrev S4800000x16 : Shape := ⟨2, ![4800000, 16]⟩
abbrev S100000x10 : Shape := ⟨2, ![100000, 10]⟩
abbrev S4800000x10 : Shape := ⟨2, ![4800000, 10]⟩
abbrev S1x10 : Shape := ⟨2, ![1, 10]⟩

abbrev nBuf : Space → Nat
  | .hbm => 138
  | .vmem => 0
  | .smem => 0
  | _ => 0

abbrev hbmTy0_0 (i : Nat) : BufTy := match i % 128 with
  | 0 => ⟨S100000x1, .f32⟩
  | 1 => ⟨S2x4800000, .i32⟩
  | 2 => ⟨S4800000, .f32⟩
  | 3 => ⟨S1x16, .f32⟩
  | 4 => ⟨S16, .f32⟩
  | 5 => ⟨S16x10, .f32⟩
  | 6 => ⟨S10, .f32⟩
  | 7 => ⟨S100000x16, .f32⟩
  | 8 => ⟨S1x4800000, .i32⟩
  | 9 => ⟨S4800000, .i32⟩
  | 10 => ⟨S1x4800000, .i32⟩
  | 11 => ⟨S4800000, .i32⟩
  | 12 => ⟨S_, .f32⟩
  | 13 => ⟨S100000, .f32⟩
  | 14 => ⟨S4800000x1, .i32⟩
  | 15 => ⟨S100000, .f32⟩
  | 16 => ⟨S_, .f32⟩
  | 17 => ⟨S100000, .f32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S4800000, .i32⟩
  | 29 => ⟨S4800000, .i1⟩
  | 30 => ⟨S_, .i32⟩
  | 31 => ⟨S4800000, .i32⟩
  | 32 => ⟨S4800000, .i32⟩
  | 33 => ⟨S4800000, .i32⟩
  | 34 => ⟨S4800000x1, .i32⟩
  | 35 => ⟨S4800000, .f32⟩
  | 36 => ⟨S4800000, .f32⟩
  | 37 => ⟨S_, .i32⟩
  | 38 => ⟨S4800000, .i32⟩
  | 39 => ⟨S4800000, .i1⟩
  | 40 => ⟨S_, .i32⟩
  | 41 => ⟨S4800000, .i32⟩
  | 42 => ⟨S4800000, .i32⟩
  | 43 => ⟨S4800000, .i32⟩
  | 44 => ⟨S4800000x1, .i32⟩
  | 45 => ⟨S4800000, .f32⟩
  | 46 => ⟨S4800000, .f32⟩
  | 47 => ⟨S4800000x1, .f32⟩
  | 48 => ⟨S_, .i32⟩
  | 49 => ⟨S4800000, .i32⟩
  | 50 => ⟨S4800000, .i1⟩
  | 51 => ⟨S_, .i32⟩
  | 52 => ⟨S4800000, .i32⟩
  | 53 => ⟨S4800000, .i32⟩
  | 54 => ⟨S4800000, .i32⟩
  | 55 => ⟨S4800000x1, .i32⟩
  | 56 => ⟨S4800000x16, .f32⟩
  | 57 => ⟨S4800000x16, .f32⟩
  | 58 => ⟨S4800000x16, .f32⟩
  | 59 => ⟨S_, .f32⟩
  | 60 => ⟨S100000x16, .f32⟩
  | 61 => ⟨S4800000x1, .i32⟩
  | 62 => ⟨S100000x16, .f32⟩
  | 63 => ⟨S100000, .f32⟩
  | 64 => ⟨S100000x1, .f32⟩
  | 65 => ⟨S100000x16, .f32⟩
  | 66 => ⟨S100000x16, .f32⟩
  | 67 => ⟨S100000x16, .f32⟩
  | 68 => ⟨S1x16, .f32⟩
  | 69 => ⟨S100000x16, .f32⟩
  | 70 => ⟨S100000x16, .f32⟩
  | 71 => ⟨S_, .f32⟩
  | 72 => ⟨S100000x16, .f32⟩
  | 73 => ⟨S100000x16, .f32⟩
  | 74 => ⟨S100000x10, .f32⟩
  | 75 => ⟨S1x4800000, .i32⟩
  | 76 => ⟨S4800000, .i32⟩
  | 77 => ⟨S1x4800000, .i32⟩
  | 78 => ⟨S4800000, .i32⟩
  | 79 => ⟨S_, .f32⟩
  | 80 => ⟨S100000, .f32⟩
  | 81 => ⟨S4800000x1, .i32⟩
  | 82 => ⟨S100000, .f32⟩
  | 83 => ⟨S_, .f32⟩
  | 84 => ⟨S100000, .f32⟩
  | 85 => ⟨S100000, .f32⟩
  | 86 => ⟨S_, .f32⟩
  | 87 => ⟨S100000, .f32⟩
  | 88 => ⟨S100000, .i1⟩
  | 89 => ⟨S100000, .f32⟩
  | 90 => ⟨S_, .f32⟩
  | 91 => ⟨S_, .f32⟩
  | 92 => ⟨S100000, .f32⟩
  | 93 => ⟨S100000, .f32⟩
  | 94 => ⟨S_, .i32⟩
  | 95 => ⟨S4800000, .i32⟩
  | 96 => ⟨S4800000, .i1⟩
  | 97 => ⟨S_, .i32⟩
  | 98 => ⟨S4800000, .i32⟩
  | 99 => ⟨S4800000, .i32⟩
  | 100 => ⟨S4800000, .i32⟩
  | 101 => ⟨S4800000x1, .i32⟩
  | 102 => ⟨S4800000, .f32⟩
  | 103 => ⟨S4800000, .f32⟩
  | 104 => ⟨S_, .i32⟩
  | 105 => ⟨S4800000, .i32⟩
  | 106 => ⟨S4800000, .i1⟩
  | 107 => ⟨S_, .i32⟩
  | 108 => ⟨S4800000, .i32⟩
  | 109 => ⟨S4800000, .i32⟩
  | 110 => ⟨S4800000, .i32⟩
  | 111 => ⟨S4800000x1, .i32⟩
  | 112 => ⟨S4800000, .f32⟩
  | 113 => ⟨S4800000, .f32⟩
  | 114 => ⟨S4800000x1, .f32⟩
  | 115 => ⟨S_, .i32⟩
  | 116 => ⟨S4800000, .i32⟩
  | 117 => ⟨S4800000, .i1⟩
  | 118 => ⟨S_, .i32⟩
  | 119 => ⟨S4800000, .i32⟩
  | 120 => ⟨S4800000, .i32⟩
  | 121 => ⟨S4800000, .i32⟩
  | 122 => ⟨S4800000x1, .i32⟩
  | 123 => ⟨S4800000x10, .f32⟩
  | 124 => ⟨S4800000x10, .f32⟩
  | 125 => ⟨S4800000x10, .f32⟩
  | 126 => ⟨S_, .f32⟩
  | 127 => ⟨S100000x10, .f32⟩
  | _ => ⟨S100000x1, .f32⟩

abbrev hbmTy0_1 (i : Nat) : BufTy := match i % 128 with
  | 0 => ⟨S4800000x1, .i32⟩
  | 1 => ⟨S100000x10, .f32⟩
  | 2 => ⟨S100000, .f32⟩
  | 3 => ⟨S100000x1, .f32⟩
  | 4 => ⟨S100000x10, .f32⟩
  | 5 => ⟨S100000x10, .f32⟩
  | 6 => ⟨S100000x10, .f32⟩
  | 7 => ⟨S1x10, .f32⟩
  | 8 => ⟨S100000x10, .f32⟩
  | 9 => ⟨S100000x10, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call1_cst : Ref sig .tc := ⟨.hbm, 71, rfl⟩
abbrev main_call1_v0 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_9 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_10 : Ref sig .tc := ⟨.hbm, 83, rfl⟩
abbrev main_v60 : Ref sig .tc := ⟨.hbm, 84, rfl⟩
abbrev main_v61 : Ref sig .tc := ⟨.hbm, 85, rfl⟩
abbrev main_cst_11 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_12 : Ref sig .tc := ⟨.hbm, 90, rfl⟩
abbrev main_call2_v0 : Ref sig .tc := ⟨.hbm, 91, rfl⟩
abbrev main_call2_v1 : Ref sig .tc := ⟨.hbm, 92, rfl⟩
abbrev main_v65 : Ref sig .tc := ⟨.hbm, 93, rfl⟩
abbrev main_c_13 : Ref sig .tc := ⟨.hbm, 94, rfl⟩
abbrev main_v66 : Ref sig .tc := ⟨.hbm, 95, rfl⟩
abbrev main_v67 : Ref sig .tc := ⟨.hbm, 96, rfl⟩
abbrev main_c_14 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_c_15 : Ref sig .tc := ⟨.hbm, 104, rfl⟩
abbrev main_v74 : Ref sig .tc := ⟨.hbm, 105, rfl⟩
abbrev main_v75 : Ref sig .tc := ⟨.hbm, 106, rfl⟩
abbrev main_c_16 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_c_17 : Ref sig .tc := ⟨.hbm, 115, rfl⟩
abbrev main_v83 : Ref sig .tc := ⟨.hbm, 116, rfl⟩
abbrev main_v84 : Ref sig .tc := ⟨.hbm, 117, rfl⟩
abbrev main_c_18 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_19 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩

abbrev nD : Nat := 1
abbrev τ : Topo := Topo.v7x

variable {F : FTy → Type} [FloatOps F]

class Facts₀ : Prop where
  slices_S2x4800000_S1x4800000_0_0 : S2x4800000.Slices ![0, 0] S1x4800000
  shapeCasts_S1x4800000_S4800000 : S1x4800000.ShapeCasts S4800000
  slices_S2x4800000_S1x4800000_1_0 : S2x4800000.Slices ![1, 0] S1x4800000
  bcast_S_S100000 : S_.BroadcastsInDim S100000 (![] : Fin 0 → Fin S100000.rank)
  bcast_S4800000_S4800000x1_0 : S4800000.BroadcastsInDim S4800000x1 (![0] : Fin 1 → Fin S4800000x1.rank)
  bcast_S_S4800000 : S_.BroadcastsInDim S4800000 (![] : Fin 0 → Fin S4800000.rank)
  bcast_S4800000x1_S4800000x16_0_1 : S4800000x1.BroadcastsInDim S4800000x16 (![0, 1] : Fin 2 → Fin S4800000x16.rank)
  bcast_S_S100000x16 : S_.BroadcastsInDim S100000x16 (![] : Fin 0 → Fin S100000x16.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S4800000x1_S4800000x10_0_1 : S4800000x1.BroadcastsInDim S4800000x10 (![0, 1] : Fin 2 → Fin S4800000x10.rank)
  bcast_S_S100000x10 : S_.BroadcastsInDim S100000x10 (![] : Fin 0 → Fin S100000x10.rank)
  bcast_S100000x1_S100000x10_0_1 : S100000x1.BroadcastsInDim S100000x10 (![0, 1] : Fin 2 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  dot_S100000x1_S1x16_S100000x16_1_0_0_1_n_n_wf : DotDims.WF S100000x1 S1x16 S100000x16 [1] [0] [0] [1] [] []
  scatter_S100000_S4800000x1_S4800000_n_0_0_1_wf : ScatterDims.WF S100000 S4800000x1 S4800000 [] [0] [0] 1
  gather_S100000_S4800000x1_S4800000_n_0_n_n_0_1_1_wf : GatherDims.WF S100000 S4800000x1 S4800000 [] [0] [] [0] [] 1 ![1]
  gather_S100000x16_S4800000x1_S4800000x16_1_0_n_n_0_1_116_wf : GatherDims.WF S100000x16 S4800000x1 S4800000x16 [1] [0] [] [0] [] 1 ![1, 16]
  scatter_S100000x16_S4800000x1_S4800000x16_1_0_0_1_wf : ScatterDims.WF S100000x16 S4800000x1 S4800000x16 [1] [0] [0] 1
  dot_S100000x16_S16x10_S100000x10_1_0_0_1_n_n_wf : DotDims.WF S100000x16 S16x10 S100000x10 [1] [0] [0] [1] [] []
  gather_S100000x10_S4800000x1_S4800000x10_1_0_n_n_0_1_110_wf : GatherDims.WF S100000x10 S4800000x1 S4800000x10 [1] [0] [] [0] [] 1 ![1, 10]
  scatter_S100000x10_S4800000x1_S4800000x10_1_0_0_1_wf : ScatterDims.WF S100000x10 S4800000x1 S4800000x10 [1] [0] [0] 1

variable [Facts₀]

def dot_S100000x1_S1x16_S100000x16_1_0_0_1_n_n : DotDims S100000x1 S1x16 S100000x16 where
  lhsContracting := [1]
  rhsContracting := [0]
  lhsNonContracting := [0]
  rhsNonContracting := [1]
  lhsBatch := []
  rhsBatch := []
  wf := dot_S100000x1_S1x16_S100000x16_1_0_0_1_n_n_wf
def scatter_S100000_S4800000x1_S4800000_n_0_0_1 : ScatterDims S100000 S4800000x1 S4800000 where
  updateWindowDims := []
  insertedWindowDims := [0]
  scatterDimsToOperandDims := [0]
  indexVectorDim := 1
  wf := scatter_S100000_S4800000x1_S4800000_n_0_0_1_wf
def gather_S100000_S4800000x1_S4800000_n_0_n_n_0_1_1 : GatherDims S100000 S4800000x1 S4800000 where
  offsetDims := []
  collapsedSliceDims := [0]
  operandBatchingDims := []
  startIndicesBatchingDims := []
  startIndexMap := [0]
  indexVectorDim := 1
  sliceSizes := ![1]
  wf := gather_S100000_S4800000x1_S4800000_n_0_n_n_0_1_1_wf
def gather_S100000x16_S4800000x1_S4800000x16_1_0_n_n_0_1_116 : GatherDims S100000x16 S4800000x1 S4800000x16 where
  offsetDims := [1]
  collapsedSliceDims := [0]
  operandBatchingDims := []
  startIndicesBatchingDims := []
  startIndexMap := [0]
  indexVectorDim := 1
  sliceSizes := ![1, 16]
  wf := gather_S100000x16_S4800000x1_S4800000x16_1_0_n_n_0_1_116_wf
def scatter_S100000x16_S4800000x1_S4800000x16_1_0_0_1 : ScatterDims S100000x16 S4800000x1 S4800000x16 where
  updateWindowDims := [1]
  insertedWindowDims := [0]
  scatterDimsToOperandDims := [0]
  indexVectorDim := 1
  wf := scatter_S100000x16_S4800000x1_S4800000x16_1_0_0_1_wf
def dot_S100000x16_S16x10_S100000x10_1_0_0_1_n_n : DotDims S100000x16 S16x10 S100000x10 where
  lhsContracting := [1]
  rhsContracting := [0]
  lhsNonContracting := [0]
  rhsNonContracting := [1]
  lhsBatch := []
  rhsBatch := []
  wf := dot_S100000x16_S16x10_S100000x10_1_0_0_1_n_n_wf
def gather_S100000x10_S4800000x1_S4800000x10_1_0_n_n_0_1_110 : GatherDims S100000x10 S4800000x1 S4800000x10 where
  offsetDims := [1]
  collapsedSliceDims := [0]
  operandBatchingDims := []
  startIndicesBatchingDims := []
  startIndexMap := [0]
  indexVectorDim := 1
  sliceSizes := ![1, 10]
  wf := gather_S100000x10_S4800000x1_S4800000x10_1_0_n_n_0_1_110_wf
def scatter_S100000x10_S4800000x1_S4800000x10_1_0_0_1 : ScatterDims S100000x10 S4800000x1 S4800000x10 where
  updateWindowDims := [1]
  insertedWindowDims := [0]
  scatterDimsToOperandDims := [0]
  indexVectorDim := 1
  wf := scatter_S100000x10_S4800000x1_S4800000x10_1_0_0_1_wf

class Facts : Prop extends Facts₀ where

variable [Facts]
-- ==== Proof.KernelRun.lean ====
/-
  The idealized kernel's run with its result named.  The program is six pipelined regions among stretches of host
  operations; the generated frame certificate follows the contents of every buffer from one segment boundary to the
  next (`Gen.W0` … `Gen.W13`).  Here the same chain of segments is run once more with a stronger reading of the last
  boundary: besides the seven argument arrays ending as launched, the result array `main_v58` ends holding what the
  last boundary's contents `Gen.W13` say it holds.  What that is, as a function of the arguments, is read off the
  boundaries one at a time in the modules that import this one.
-/
import proofs.«109362_j46969762349063_1_alg».proof.Proof.Gen.KernelIdeal.Frame

set_option maxRecDepth 16384

noncomputable section

namespace Cert.KernelIdeal.Bridge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates without a fault; the result array ends at the last
    boundary's contents and the argument arrays end as launched. -/
theorem run_named : θ_run defs (onTc (τ := τ) (main (F := F))) ⟨m, fun _ => 0, ρ⟩ (fun r => ∀ c : Dev nD,
      r.2.mem ((c.tc : Thread nD τ).loc main_v58) = W13 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v58 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c)⟩)

end Cert.KernelIdeal.Bridge

end
-- ==== Proof.LibMatmulPlain.lean ====
/-
  Two general facts about matrix products at the ideal values.

  * A kernel's matrix product with the plain dimension numbers (rows by columns, one contracted axis, no batch axis)
    accumulated into the zero splat, read at entry (a, b), is the inner product of row `a` of the left factor with
    column `b` of the right one: `∑ c, A a c · B c b`.
  * On the extended reals a factor distributes over a sum of two NONNEGATIVE terms whatever the factor is (the two
    infinities of opposite sign cannot meet), so a weighted sum of such sums splits into the two weighted sums.
-/
import Idealize.ShloMosaic.Lib.StackMember
import Idealize.ShloMosaic.Lib.KernelVsHost
import Idealize.ShloMosaic.Lib.ValueIdx
import Idealize.ShloMosaic.PureOps.Ideal.Laws

noncomputable section

open scoped BigOperators

namespace Cert.LibMatmulPlain

open Idealize.ShloMosaic Idealize.ShloMosaic.ValueIdx

/-- A product with the plain dimension numbers accumulated into the zero splat, read at an entry: the inner product
    of a row of the left factor with a column of the right one. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- A factor distributes over a sum of two nonnegative extended reals, so a weighted sum of such sums splits. -/
theorem sum_mul_add_of_nonneg {ι : Type} [Fintype ι] (w A B : ι → EReal) (hA : ∀ k, 0 ≤ A k) (hB : ∀ k, 0 ≤ B k) :
    ∑ k, w k * (A k + B k) = ∑ k, w k * A k + ∑ k, w k * B k := by
  rw [← Finset.sum_add_distrib]
  exact Finset.sum_congr rfl fun k _ => EReal.left_distrib_of_nonneg (hA k) (hB k)

end Cert.LibMatmulPlain

end
-- ==== Proof.LibEntryForms.lean ====
/-
  Entry-by-entry forms of the three kinds of array the kernel's regions produce, over any sizes, and the same arrays
  as the host's whole-array operations spell them.

  * the per-edge product: entry `(e, q)` is `weight(e, 0) · feature(e, q)`; the host multiplies the features by the
    weight column broadcast along the rows;
  * a layer's combine step: entry `(r, q)` is `agg(r, q) + (d(r, 0) · d(r, 0)) · x(r, q) + b(0, q)`; the host squares the
    inverse-root degrees first, as a vector, makes that a column and broadcasts it, and makes the bias a row and
    broadcasts it — at every entry the same three extended reals are added in the same order;
  * the positive part, entry by entry, against the host's maximum with a broadcast zero;
  * a matrix product: entry `(r, q)` is the sum over `c` of `x(r, c) · w(c, q)`, which is what the host's dot_general with
    the plain dimension numbers is at the exact values.

  None of these uses a law of arithmetic: each pair is the same expression, read through the layout operations.
-/
import Idealize.ShloMosaic.Lib.StackMember
import Idealize.ShloMosaic.Lib.KernelVsHost
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Forms

open Idealize.ShloMosaic Idealize.ShloMosaic.ValueIdx

/-- An edge's weight times each of its features. -/
def scaled {E W : Nat} (nrm : (⟨2, ![E, 1]⟩ : Shape).Idx → Ideal .f32) (g : (⟨2, ![E, W]⟩ : Shape).Idx → Ideal .f32) :
    (⟨2, ![E, W]⟩ : Shape).Idx → Ideal .f32 :=
  fun i => nrm (ix2 (i 0) (0 : Fin 1)) * g i

/-- Neighbour sum + (inverse-root degree)² · own feature + bias, entry by entry. -/
def combined {N W : Nat} (agg xp : (⟨2, ![N, W]⟩ : Shape).Idx → Ideal .f32) (dis : (⟨2, ![N, 1]⟩ : Shape).Idx → Ideal .f32)
    (b : (⟨2, ![1, W]⟩ : Shape).Idx → Ideal .f32) : (⟨2, ![N, W]⟩ : Shape).Idx → Ideal .f32 :=
  fun i => (agg i + (dis (ix2 (i 0) (0 : Fin 1)) * dis (ix2 (i 0) (0 : Fin 1))) * xp i) + b (ix2 (0 : Fin 1) (i 1))

/-- The positive part, entry by entry. -/
def positivePart {s : Shape} (x : s.Idx → Ideal .f32) : s.Idx → Ideal .f32 :=
  fun i => max (x i) (Ideal.ofBits .f32 0x00000000#32)

/-- The matrix product, entry by entry. -/
def product {N K M : Nat} (x : (⟨2, ![N, K]⟩ : Shape).Idx → Ideal .f32) (w : (⟨2, ![K, M]⟩ : Shape).Idx → Ideal .f32) :
    (⟨2, ![N, M]⟩ : Shape).Idx → Ideal .f32 :=
  fun i => ∑ cc : Fin K, x (ix2 (i 0) cc) * w (ix2 cc (i 1))

/-- A column `[a, 1]` broadcast along the rows by the host reads, at `(p, q)`, the column at `p`. -/
theorem hostColumn_apply {a b : Nat} {α : Type} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if a = 1 then 0 else p.val
    split
    · have := p.isLt; omega
    · rfl
  | ⟨1, _⟩ => rfl

/-- A vector `[a]` made a column `[a, 1]` by the host reads, at `(p, u)`, the vector at `p`. -/
theorem hostAsColumn_apply {a : Nat} {α : Type} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A row `[1, b]` broadcast down the rows by the host reads, at `(p, q)`, the row at `q`. -/
theorem hostRow_apply {a b : Nat} {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply ![0, 1] h v (ix2 p q) (ix2 (0 : Fin 1) q) fun ax => ?_
  match ax with
  | ⟨0, _⟩ => rfl
  | ⟨1, _⟩ =>
    show q.val = if b = 1 then 0 else q.val
    split
    · have := q.isLt; omega
    · rfl

/-- A vector `[b]` made a row `[1, b]` by the host reads, at `(u, q)`, the vector at `q`. -/
theorem hostAsRow_apply {b : Nat} {α : Type} (v : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h v (ix2 u q) = v (ix1 q) := by
  refine broadcastInDim_apply ![1] h v (ix2 u q) (ix1 q) fun ax => ?_
  match ax with
  | ⟨0, _⟩ =>
    show q.val = if b = 1 then 0 else q.val
    split
    · have := q.isLt; omega
    · rfl

/-- The per-edge product as the host spells it: the weight column broadcast along the rows, times the features. -/
theorem scaled_eq_host {E W : Nat} (nrm : (⟨2, ![E, 1]⟩ : Shape).Idx → Ideal .f32) (g : (⟨2, ![E, W]⟩ : Shape).Idx → Ideal .f32)
    (h : (⟨2, ![E, 1]⟩ : Shape).BroadcastsInDim ⟨2, ![E, W]⟩ ![0, 1]) :
    scaled nrm g = mulf (F := Ideal) (φ := .f32) (broadcastInDim ⟨2, ![E, W]⟩ ![0, 1] h nrm) g := by
  funext i
  obtain ⟨p, q, rfl⟩ : ∃ (p : Fin E) (q : Fin W), i = ix2 p q := ⟨i 0, i 1, eq_ix2 i⟩
  rw [mulf_apply, hostColumn_apply]
  rfl

/-- The combine step as the host spells it. The kernel is handed the inverse-root degrees as a column and the bias
    as a one-row cast of the bias vector; the host squares the degrees as a vector, then makes the column. -/
theorem combined_eq_host {N W : Nat} (agg xp : (⟨2, ![N, W]⟩ : Shape).Idx → Ideal .f32) (d : (⟨1, ![N]⟩ : Shape).Idx → Ideal .f32)
    (b : (⟨1, ![W]⟩ : Shape).Idx → Ideal .f32)
    (hcol : (⟨1, ![N]⟩ : Shape).BroadcastsInDim ⟨2, ![N, 1]⟩ ![0])
    (hcols : (⟨2, ![N, 1]⟩ : Shape).BroadcastsInDim ⟨2, ![N, W]⟩ ![0, 1])
    (hcast : (⟨1, ![W]⟩ : Shape).ShapeCasts ⟨2, ![1, W]⟩)
    (hrow : (⟨1, ![W]⟩ : Shape).BroadcastsInDim ⟨2, ![1, W]⟩ ![1])
    (hrows : (⟨2, ![1, W]⟩ : Shape).BroadcastsInDim ⟨2, ![N, W]⟩ ![0, 1]) :
    combined agg xp (broadcastInDim ⟨2, ![N, 1]⟩ ![0] hcol d) (shapeCast ⟨2, ![1, W]⟩ b hcast)
      = addf (F := Ideal) (φ := .f32) (addf (F := Ideal) (φ := .f32) agg (mulf (F := Ideal) (φ := .f32) (broadcastInDim ⟨2, ![N, W]⟩ ![0, 1] hcols (broadcastInDim ⟨2, ![N, 1]⟩ ![0] hcol (mulf (F := Ideal) (φ := .f32) d d))) xp))
          (broadcastInDim ⟨2, ![N, W]⟩ ![0, 1] hrows (broadcastInDim ⟨2, ![1, W]⟩ ![1] hrow b)) := by
  funext i
  obtain ⟨p, q, rfl⟩ : ∃ (p : Fin N) (q : Fin W), i = ix2 p q := ⟨i 0, i 1, eq_ix2 i⟩
  rw [addf_apply, addf_apply, mulf_apply, hostColumn_apply, hostAsColumn_apply, mulf_apply, hostRow_apply, hostAsRow_apply]
  show (agg (ix2 p q) + (broadcastInDim ⟨2, ![N, 1]⟩ ![0] hcol d (ix2 p (0 : Fin 1)) * broadcastInDim ⟨2, ![N, 1]⟩ ![0] hcol d (ix2 p (0 : Fin 1))) * xp (ix2 p q))
      + shapeCast ⟨2, ![1, W]⟩ b hcast (ix2 (0 : Fin 1) q) = _
  rw [hostAsColumn_apply, shapeCast_a_1a_apply]

/-- The positive part as the host spells it: the maximum with a broadcast zero. -/
theorem positivePart_eq_host {s : Shape} (x : s.Idx → Ideal .f32) (h : (⟨0, ![]⟩ : Shape).BroadcastsInDim s ![]) :
    positivePart x = maximumf (F := Ideal) (φ := .f32) x (broadcastInDim s ![] h (constant (F := Ideal) ⟨0, ![]⟩ .f32 0x00000000#32)) := by
  funext i
  rw [maximumf_apply]
  rfl

/-- The matrix product as the host spells it: dot_general with the plain dimension numbers. -/
theorem product_eq_host {N K M : Nat} (x : (⟨2, ![N, K]⟩ : Shape).Idx → Ideal .f32) (w : (⟨2, ![K, M]⟩ : Shape).Idx → Ideal .f32)
    (prec : Option ContractPrecision) :
    product x w = Host.dotGeneral (F := Ideal) (DotDims.plain N K M) prec (x : FVec Ideal ⟨2, ![N, K]⟩ .f32) (w : FVec Ideal ⟨2, ![K, M]⟩ .f32) := by
  funext i
  obtain ⟨p, q, rfl⟩ : ∃ (p : Fin N) (q : Fin M), i = ix2 p q := ⟨i 0, i 1, eq_ix2 i⟩
  exact (StackMember.dotGeneral_plain_apply prec x w p q).symm

end Cert.Forms

end
-- ==== Proof.Linear16.lean ====
/-
  Region 0: a layer's linear transform.  Over the 100 000 nodes in 20 blocks of 5 000 rows, each output block is the
  matrix product of the node features' block (1 column) with the whole 1×16 weight matrix, accumulated into zero.  At the
  exact extended-real values an entry `(r, q)` of such a product is the sum over the contracted coordinate `c` of
  `x(r, c) · w(c, q)`.  Block `t` of the feature and output windows starts at row `5000·t`; the weight window is its whole
  array at every point.  So what point `t` writes back is block `t` of the product of the two whole arrays, the 20 blocks
  tile the output, and the output array ends holding that product everywhere.
-/
import proofs.«109362_j46969762349063_1_alg».proof.Proof.Gen.KernelIdeal.Frame
import proofs.«109362_j46969762349063_1_alg».proof.Proof.LibMatmulPlain
import proofs.«109362_j46969762349063_1_alg».proof.Proof.LibEntryForms
import Idealize.ShloMosaic.Lib.Pipeline.Value
import Idealize.ShloMosaic.Lib.ValueIdx

set_option maxRecDepth 16384

noncomputable section

open scoped BigOperators

namespace Cert.KernelIdeal.Linear16

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The product and the sum of two extended reals, as functions (so that a buffer's entry is read at the float type). -/
abbrev mulE (a b : Ideal FTy.f32) : Ideal FTy.f32 := a * b
abbrev addE (a b : Ideal FTy.f32) : Ideal FTy.f32 := a + b

theorem zero_offsets : (![0, 0] : Fin 2 → Nat) = fun _ => 0 := funext fun a => by fin_cases a <;> rfl

/-- The body's stored value at an entry of a block: the inner product of a row of the block with a column of the weights. -/
theorem payload_apply (x0 : Vec Ideal S5000x1 .f32) (x1 : Vec Ideal S1x16 .f32) (p : Fin 5000) (q : Fin 16) :
    k0_pay1 x0 x1 (ix2 p q) = ∑ cc : Fin 1, x0 (ix2 p cc) * x1 (ix2 cc q) := by
  unfold k0_pay1
  exact Cert.LibMatmulPlain.matmul_plain_zero_apply (some .fp32) x0 x1 p q

/-- The three windows' index maps over the 20 grid points: a node-indexed block starts at row `5000·t`, column `0`; the
    weight block is always the one at `(0, 0)`. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block `t` of the product of the two arrays as the region finds them. -/
theorem flushed_eq (c : Dev nD) (t : Fin cfg0.N) :
    (dat0 V c).flushed 2 t = ((cfg0.win 2).blk t).view.read (Elt Ideal) (Cert.Forms.product (N := 100000) (K := 1) (M := 16) (V c main_arg0) (V c main_arg3)) := by
  show (cfg0.win 2).cut (grid0.coords t) ((dat0 V c).after 2 t) = _
  rw [after0_2]
  unfold out0_2
  rw [View.canon_unit_zero zero_offsets]
  simp only [View.ld_unit_zero (S := S5000x1) zero_offsets, View.ld_unit_zero (S := S1x16) zero_offsets]
  obtain ⟨e0, e1, e2, e3, e4, e5⟩ := index_facts t
  funext j
  obtain ⟨p, q, rfl⟩ : ∃ (p : Fin 5000) (q : Fin 16), j = ix2 p q := ⟨j 0, j 1, eq_ix2 j⟩
  show k0_pay1 (iblk0 V c 0 t) (iblk0 V c 1 t) (ix2 p q)
    = Cert.Forms.product (N := 100000) (K := 1) (M := 16) (V c main_arg0) (V c main_arg3) (((cfg0.win 2).blk t).view.emb (ix2 p q))
  refine (payload_apply (iblk0 V c 0 t) (iblk0 V c 1 t) p q).trans ?_
  refine Finset.sum_congr rfl fun cc _ => ?_
  have h0 : ((cfg0.win 0).blk t).view.emb (ix2 p cc) = ix2 ((((cfg0.win 2).blk t).view.emb (ix2 p q)) 0) cc := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 1 + 1 * cc.val = cc.val; omega
  have h1 : ((cfg0.win 1).blk t).view.emb (ix2 cc q) = ix2 cc ((((cfg0.win 2).blk t).view.emb (ix2 p q)) 1) := by
    funext a; apply Fin.ext
    match a with
    | ⟨0, _⟩ => show win0_1.index t (0 : Fin 2) * 1 + 1 * cc.val = cc.val; omega
    | ⟨1, _⟩ => show win0_1.index t (1 : Fin 2) * 16 + 1 * q.val = win0_2.index t (1 : Fin 2) * 16 + 1 * q.val; omega
  show mulE (V c main_arg0 (((cfg0.win 0).blk t).view.emb (ix2 p cc))) (V c main_arg3 (((cfg0.win 1).blk t).view.emb (ix2 cc q)))
    = mulE (V c main_arg0 (ix2 ((((cfg0.win 2).blk t).view.emb (ix2 p q)) 0) cc)) (V c main_arg3 (ix2 cc ((((cfg0.win 2).blk t).view.emb (ix2 p q)) 1)))
  rw [h0, h1]
  try rfl

/-- An entry of the output array lies in point `t`'s block iff each coordinate lies in the block's range on its axis. -/
theorem mem_block (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v31).slice (win0_2.rect t)).set ↔ _
  rw [View.set_slice_whole, Rect.mem_set_unit]
  exact Iff.rfl

/-- Every entry of the output lies in some point's block: row `r` in the block of point `r / 5000`. -/
theorem covered (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 20 := N_0
  let t : Fin cfg0.N := ⟨(i 0).val / 5000, by omega⟩
  have ht : t.val = (i 0).val / 5000 := rfl
  obtain ⟨e0, e1, e2, e3, e4, e5⟩ := index_facts t
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 16 ≤ (i 1).val ∧ (i 1).val < win0_2.index t (1 : Fin 2) * 16 + 16; omega

/-- The output array after the region: the product of the two input arrays as the region finds them. -/
theorem final (c : Dev nD) : (dat0 V c).arrAt 2 cfg0.N = Cert.Forms.product (N := 100000) (K := 1) (M := 16) (V c main_arg0) (V c main_arg3) :=
  (dat0 V c).arrAt_eq_of_cover 2 (Cert.Forms.product (N := 100000) (K := 1) (M := 16) (V c main_arg0) (V c main_arg3)) (fun t _ => flushed_eq V c t) covered

end Cert.KernelIdeal.Linear16

end
-- ==== Proof.Linear10.lean ====
/-
  Region 3: a layer's linear transform.  Over the 100 000 nodes in 20 blocks of 5 000 rows, each output block is the
  matrix product of the node features' block (16 columns) with the whole 16×10 weight matrix, accumulated into zero.  At the
  exact extended-real values an entry `(r, q)` of such a product is the sum over the contracted coordinate `c` of
  `x(r, c) · w(c, q)`.  Block `t` of the feature and output windows starts at row `5000·t`; the weight window is its whole
  array at every point.  So what point `t` writes back is block `t` of the product of the two whole arrays, the 20 blocks
  tile the output, and the output array ends holding that product everywhere.
-/
import proofs.«109362_j46969762349063_1_alg».proof.Proof.Gen.KernelIdeal.Frame
import proofs.«109362_j46969762349063_1_alg».proof.Proof.LibMatmulPlain
import proofs.«109362_j46969762349063_1_alg».proof.Proof.LibEntryForms
import Idealize.ShloMosaic.Lib.Pipeline.Value
import Idealize.ShloMosaic.Lib.ValueIdx

set_option maxRecDepth 16384

noncomputable section

open scoped BigOperators

namespace Cert.KernelIdeal.Linear10

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The product and the sum of two extended reals, as functions (so that a buffer's entry is read at the float type). -/
abbrev mulE (a b : Ideal FTy.f32) : Ideal FTy.f32 := a * b
abbrev addE (a b : Ideal FTy.f32) : Ideal FTy.f32 := a + b

theorem zero_offsets : (![0, 0] : Fin 2 → Nat) = fun _ => 0 := funext fun a => by fin_cases a <;> rfl

/-- The body's stored value at an entry of a block: the inner product of a row of the block with a column of the weights. -/
theorem payload_apply (x0 : Vec Ideal S5000x16 .f32) (x1 : Vec Ideal S16x10 .f32) (p : Fin 5000) (q : Fin 10) :
    k3_pay1 x0 x1 (ix2 p q) = ∑ cc : Fin 16, x0 (ix2 p cc) * x1 (ix2 cc q) := by
  unfold k3_pay1
  rw [shapeCast_self]
  exact Cert.LibMatmulPlain.matmul_plain_zero_apply (some .fp32) x0 x1 p q

/-- The three windows' index maps over the 20 grid points: a node-indexed block starts at row `5000·t`, column `0`; the
    weight block is always the one at `(0, 0)`. -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- What point `t` writes back is block `t` of the product of the two arrays as the region finds them. -/
theorem flushed_eq (c : Dev nD) (t : Fin cfg3.N) :
    (dat3 V c).flushed 2 t = ((cfg3.win 2).blk t).view.read (Elt Ideal) (Cert.Forms.product (N := 100000) (K := 16) (M := 10) (V c main_v44) (V c main_arg5)) := by
  show (cfg3.win 2).cut (grid3.coords t) ((dat3 V c).after 2 t) = _
  rw [after3_2]
  unfold out3_2
  rw [View.canon_unit_zero zero_offsets]
  simp only [View.ld_unit_zero (S := S5000x16) zero_offsets, View.ld_unit_zero (S := S16x10) zero_offsets]
  obtain ⟨e0, e1, e2, e3, e4, e5⟩ := index_facts t
  funext j
  obtain ⟨p, q, rfl⟩ : ∃ (p : Fin 5000) (q : Fin 10), j = ix2 p q := ⟨j 0, j 1, eq_ix2 j⟩
  show k3_pay1 (iblk3 V c 0 t) (iblk3 V c 1 t) (ix2 p q)
    = Cert.Forms.product (N := 100000) (K := 16) (M := 10) (V c main_v44) (V c main_arg5) (((cfg3.win 2).blk t).view.emb (ix2 p q))
  refine (payload_apply (iblk3 V c 0 t) (iblk3 V c 1 t) p q).trans ?_
  refine Finset.sum_congr rfl fun cc _ => ?_
  have h0 : ((cfg3.win 0).blk t).view.emb (ix2 p cc) = ix2 ((((cfg3.win 2).blk t).view.emb (ix2 p q)) 0) cc := by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 16 + 1 * cc.val = cc.val; omega
  have h1 : ((cfg3.win 1).blk t).view.emb (ix2 cc q) = ix2 cc ((((cfg3.win 2).blk t).view.emb (ix2 p q)) 1) := by
    funext a; apply Fin.ext
    match a with
    | ⟨0, _⟩ => show win3_1.index t (0 : Fin 2) * 16 + 1 * cc.val = cc.val; omega
    | ⟨1, _⟩ => show win3_1.index t (1 : Fin 2) * 10 + 1 * q.val = win3_2.index t (1 : Fin 2) * 10 + 1 * q.val; omega
  show mulE (V c main_v44 (((cfg3.win 0).blk t).view.emb (ix2 p cc))) (V c main_arg5 (((cfg3.win 1).blk t).view.emb (ix2 cc q)))
    = mulE (V c main_v44 (ix2 ((((cfg3.win 2).blk t).view.emb (ix2 p q)) 0) cc)) (V c main_arg5 (ix2 cc ((((cfg3.win 2).blk t).view.emb (ix2 p q)) 1)))
  rw [h0, h1]
  try rfl

/-- An entry of the output array lies in point `t`'s block iff each coordinate lies in the block's range on its axis. -/
theorem mem_block (t : Fin cfg3.N) (i : S100000x10.Idx) :
    i ∈ ((cfg3.win 2).blk t).view.set ↔ ∀ a : Fin 2, win3_2.index t a * S5000x10.size a ≤ (i a).val ∧ (i a).val < win3_2.index t a * S5000x10.size a + S5000x10.size a := by
  show i ∈ ((View.whole main_v45).slice (win3_2.rect t)).set ↔ _
  rw [View.set_slice_whole, Rect.mem_set_unit]
  exact Iff.rfl

/-- Every entry of the output lies in some point's block: row `r` in the block of point `r / 5000`. -/
theorem covered (i : S100000x10.Idx) : ∃ t : Fin cfg3.N, (cfg3.win 2).flush t = true ∧ i ∈ ((cfg3.win 2).blk t).view.set := by
  have hi0 : (i 0).val < 100000 := (i 0).isLt
  have hi1 : (i 1).val < 10 := (i 1).isLt
  have hN : cfg3.N = 20 := N_3
  let t : Fin cfg3.N := ⟨(i 0).val / 5000, by omega⟩
  have ht : t.val = (i 0).val / 5000 := rfl
  obtain ⟨e0, e1, e2, e3, e4, e5⟩ := index_facts t
  refine ⟨t, flush3_2 t, ?_⟩
  rw [mem_block]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 10 ≤ (i 1).val ∧ (i 1).val < win3_2.index t (1 : Fin 2) * 10 + 10; omega

/-- The output array after the region: the product of the two input arrays as the region finds them. -/
theorem final (c : Dev nD) : (dat3 V c).arrAt 2 cfg3.N = Cert.Forms.product (N := 100000) (K := 16) (M := 10) (V c main_v44) (V c main_arg5) :=
  (dat3 V c).arrAt_eq_of_cover 2 (Cert.Forms.product (N := 100000) (K := 16) (M := 10) (V c main_v44) (V c main_arg5)) (fun t _ => flushed_eq V c t) covered

end Cert.KernelIdeal.Linear10

end
-- ==== Proof.LibKeepdims.lean ====
/-
  Two layout readings a row reduction with `keepdims` needs: a vector of `a` entries viewed as a column `[a, 1]`, and that
  column repeated along `b` columns. Each reads, at an index given by its coordinates, one entry of the operand.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.Edge16.lean ====
/-
  Region 1: the per-edge product.  The region walks the 4 800 000 edges in 400 blocks of 12 000 rows; at each block it
  multiplies every row of the gathered features (16 columns) by that edge's normalisation weight, a one-column
  array broadcast along the row.  Block `t` of all three windows starts at row `12000·t`, so what point `t` writes back
  is block `t` of ONE function of the two whole arrays — `weight(e) · feature(e, q)` at entry `(e, q)` —, the 400 blocks
  tile the output, and the output array therefore ends holding that function everywhere.
-/
import proofs.«109362_j46969762349063_1_alg».proof.Proof.Gen.KernelIdeal.Frame
import proofs.«109362_j46969762349063_1_alg».proof.Proof.LibKeepdims
import proofs.«109362_j46969762349063_1_alg».proof.Proof.LibEntryForms
import Idealize.ShloMosaic.Lib.Pipeline.Value
import Idealize.ShloMosaic.Lib.ValueIdx

set_option maxRecDepth 16384

noncomputable section

namespace Cert.KernelIdeal.Edge16

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The product and the sum of two extended reals, as functions (so that a buffer's entry is read at the float type). -/
abbrev mulE (a b : Ideal FTy.f32) : Ideal FTy.f32 := a * b
abbrev addE (a b : Ideal FTy.f32) : Ideal FTy.f32 := a + b

theorem zero_offsets : (![0, 0] : Fin 2 → Nat) = fun _ => 0 := funext fun a => by fin_cases a <;> rfl

/-- The body's stored value at row `p`, column `q` of a block: the row's weight times the feature. -/
theorem payload_apply (x0 : Vec Ideal S12000x1 .f32) (x1 : Vec Ideal S12000x16 .f32) (p : Fin 12000) (q : Fin 16) :
    k1_pay1 x0 x1 (ix2 p q) = x0 (ix2 p (0 : Fin 1)) * x1 (ix2 p q) := by
  unfold k1_pay1
  rw [shapeCast_self, shapeCast_self, mulf_apply, Cert.Keepdims.broadcastTo_a1_ab_apply]

/-- The three windows' index maps over the 400 grid points: each block starts at row `12000·t`, column `0`. -/
theorem index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point `t` writes back is block `t` of the per-edge product of the two arrays as the region finds them. -/
theorem flushed_eq (c : Dev nD) (t : Fin cfg1.N) :
    (dat1 V c).flushed 2 t = ((cfg1.win 2).blk t).view.read (Elt Ideal) (Cert.Forms.scaled (E := 4800000) (W := 16) (V c main_v30) (V c main_v38)) := by
  show (cfg1.win 2).cut (grid1.coords t) ((dat1 V c).after 2 t) = _
  rw [after1_2]
  unfold out1_2
  rw [View.canon_unit_zero zero_offsets]
  simp only [View.ld_unit_zero (S := S12000x1) zero_offsets, View.ld_unit_zero (S := S12000x16) zero_offsets]
  obtain ⟨e0, e1, e2, e3, e4, e5⟩ := index_facts t
  funext j
  obtain ⟨p, q, rfl⟩ : ∃ (p : Fin 12000) (q : Fin 16), j = ix2 p q := ⟨j 0, j 1, eq_ix2 j⟩
  show k1_pay1 (iblk1 V c 0 t) (iblk1 V c 1 t) (ix2 p q)
    = Cert.Forms.scaled (E := 4800000) (W := 16) (V c main_v30) (V c main_v38) (((cfg1.win 2).blk t).view.emb (ix2 p q))
  refine (payload_apply (iblk1 V c 0 t) (iblk1 V c 1 t) p q).trans ?_
  have h0 : ((cfg1.win 0).blk t).view.emb (ix2 p (0 : Fin 1)) = ix2 ((((cfg1.win 2).blk t).view.emb (ix2 p q)) 0) (0 : Fin 1) := by
    funext a; apply Fin.ext
    match a with
    | ⟨0, _⟩ => show win1_0.index t (0 : Fin 2) * 12000 + 1 * p.val = win1_2.index t (0 : Fin 2) * 12000 + 1 * p.val; omega
    | ⟨1, _⟩ => show win1_0.index t (1 : Fin 2) * 1 + 1 * 0 = 0; omega
  have h1 : ((cfg1.win 1).blk t).view.emb (ix2 p q) = ((cfg1.win 2).blk t).view.emb (ix2 p q) := by
    funext a; apply Fin.ext
    match a with
    | ⟨0, _⟩ => show win1_1.index t (0 : Fin 2) * 12000 + 1 * p.val = win1_2.index t (0 : Fin 2) * 12000 + 1 * p.val; omega
    | ⟨1, _⟩ => show win1_1.index t (1 : Fin 2) * 16 + 1 * q.val = win1_2.index t (1 : Fin 2) * 16 + 1 * q.val; omega
  show mulE (V c main_v30 (((cfg1.win 0).blk t).view.emb (ix2 p (0 : Fin 1)))) (V c main_v38 (((cfg1.win 1).blk t).view.emb (ix2 p q)))
    = mulE (V c main_v30 (ix2 ((((cfg1.win 2).blk t).view.emb (ix2 p q)) 0) (0 : Fin 1))) (V c main_v38 (((cfg1.win 2).blk t).view.emb (ix2 p q)))
  rw [h0, h1]
  try rfl

/-- An entry of the output array lies in point `t`'s block iff each coordinate lies in the block's range on its axis. -/
theorem mem_block (t : Fin cfg1.N) (i : S4800000x16.Idx) :
    i ∈ ((cfg1.win 2).blk t).view.set ↔ ∀ a : Fin 2, win1_2.index t a * S12000x16.size a ≤ (i a).val ∧ (i a).val < win1_2.index t a * S12000x16.size a + S12000x16.size a := by
  show i ∈ ((View.whole main_v39).slice (win1_2.rect t)).set ↔ _
  rw [View.set_slice_whole, Rect.mem_set_unit]
  exact Iff.rfl

/-- Every entry of the output lies in some point's block: row `r` in the block of point `r / 12000`. -/
theorem covered (i : S4800000x16.Idx) : ∃ t : Fin cfg1.N, (cfg1.win 2).flush t = true ∧ i ∈ ((cfg1.win 2).blk t).view.set := by
  have hi0 : (i 0).val < 4800000 := (i 0).isLt
  have hi1 : (i 1).val < 16 := (i 1).isLt
  have hN : cfg1.N = 400 := N_1
  let t : Fin cfg1.N := ⟨(i 0).val / 12000, by omega⟩
  have ht : t.val = (i 0).val / 12000 := rfl
  obtain ⟨e0, e1, e2, e3, e4, e5⟩ := index_facts t
  refine ⟨t, flush1_2 t, ?_⟩
  rw [mem_block]
  intro a
  match a with
  | ⟨0, _⟩ => show win1_2.index t (0 : Fin 2) * 12000 ≤ (i 0).val ∧ (i 0).val < win1_2.index t (0 : Fin 2) * 12000 + 12000; omega
  | ⟨1, _⟩ => show win1_2.index t (1 : Fin 2) * 16 ≤ (i 1).val ∧ (i 1).val < win1_2.index t (1 : Fin 2) * 16 + 16; omega

/-- The output array after the region: the per-edge product of the two input arrays as the region finds them. -/
theorem final (c : Dev nD) : (dat1 V c).arrAt 2 cfg1.N = Cert.Forms.scaled (E := 4800000) (W := 16) (V c main_v30) (V c main_v38) :=
  (dat1 V c).arrAt_eq_of_cover 2 (Cert.Forms.scaled (E := 4800000) (W := 16) (V c main_v30) (V c main_v38)) (fun t _ => flushed_eq V c t) covered

end Cert.KernelIdeal.Edge16

end
-- ==== Proof.Edge10.lean ====
/-
  Region 4: the per-edge product.  The region walks the 4 800 000 edges in 400 blocks of 12 000 rows; at each block it
  multiplies every row of the gathered features (10 columns) by that edge's normalisation weight, a one-column
  array broadcast along the row.  Block `t` of all three windows starts at row `12000·t`, so what point `t` writes back
  is block `t` of ONE function of the two whole arrays — `weight(e) · feature(e, q)` at entry `(e, q)` —, the 400 blocks
  tile the output, and the output array therefore ends holding that function everywhere.
-/
import proofs.«109362_j46969762349063_1_alg».proof.Proof.Gen.KernelIdeal.Frame
import proofs.«109362_j46969762349063_1_alg».proof.Proof.LibKeepdims
import proofs.«109362_j46969762349063_1_alg».proof.Proof.LibEntryForms
import Idealize.ShloMosaic.Lib.Pipeline.Value
import Idealize.ShloMosaic.Lib.ValueIdx

set_option maxRecDepth 16384

noncomputable section

namespace Cert.KernelIdeal.Edge10

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The product and the sum of two extended reals, as functions (so that a buffer's entry is read at the float type). -/
abbrev mulE (a b : Ideal FTy.f32) : Ideal FTy.f32 := a * b
abbrev addE (a b : Ideal FTy.f32) : Ideal FTy.f32 := a + b

theorem zero_offsets : (![0, 0] : Fin 2 → Nat) = fun _ => 0 := funext fun a => by fin_cases a <;> rfl

/-- The body's stored value at row `p`, column `q` of a block: the row's weight times the feature. -/
theorem payload_apply (x0 : Vec Ideal S12000x1 .f32) (x1 : Vec Ideal S12000x10 .f32) (p : Fin 12000) (q : Fin 10) :
    k4_pay1 x0 x1 (ix2 p q) = x0 (ix2 p (0 : Fin 1)) * x1 (ix2 p q) := by
  unfold k4_pay1
  rw [shapeCast_self, shapeCast_self, mulf_apply, Cert.Keepdims.broadcastTo_a1_ab_apply]

/-- The three windows' index maps over the 400 grid points: each block starts at row `12000·t`, column `0`. -/
theorem index_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

variable (V : (c : Dev nD) → (b : Ref sig .tc) → Buf (Elt Ideal) ((c : Thread nD τ).loc b))

/-- What point `t` writes back is block `t` of the per-edge product of the two arrays as the region finds them. -/
theorem flushed_eq (c : Dev nD) (t : Fin cfg4.N) :
    (dat4 V c).flushed 2 t = ((cfg4.win 2).blk t).view.read (Elt Ideal) (Cert.Forms.scaled (E := 4800000) (W := 10) (V c main_v30) (V c main_v52)) := by
  show (cfg4.win 2).cut (grid4.coords t) ((dat4 V c).after 2 t) = _
  rw [after4_2]
  unfold out4_2
  rw [View.canon_unit_zero zero_offsets]
  simp only [View.ld_unit_zero (S := S12000x1) zero_offsets, View.ld_unit_zero (S := S12000x10) zero_offsets]
  obtain ⟨e0, e1, e2, e3, e4, e5⟩ := index_facts t
  funext j
  obtain ⟨p, q, rfl⟩ : ∃ (p : Fin 12000) (q : Fin 10), j = ix2 p q := ⟨j 0, j 1, eq_ix2 j⟩
  show k4_pay1 (iblk4 V c 0 t) (iblk4 V c 1 t) (ix2 p q)
    = Cert.Forms.scaled (E := 4800000) (W := 10) (V c main_v30) (V c main_v52) (((cfg4.win 2).blk t).view.emb (ix2 p q))
  refine (payload_apply (iblk4 V c 0 t) (iblk4 V c 1 t) p q).trans ?_
  have h0 : ((cfg4.win 0).blk t).view.emb (ix2 p (0 : Fin 1)) = ix2 ((((cfg4.win 2).blk t).view.emb (ix2 p q)) 0) (0 : Fin 1) := by
    funext a; apply Fin.ext
    match a with
    | ⟨0, _⟩ => show win4_0.index t (0 : Fin 2) * 12000 + 1 * p.val = win4_2.index t (0 : Fin 2) * 12000 + 1 * p.val; omega
    | ⟨1, _⟩ => show win4_0.index t (1 : Fin 2) * 1 + 1 * 0 = 0; omega
  have h1 : ((cfg4.win 1).blk t).view.emb (ix2 p q) = ((cfg4.win 2).blk t).view.emb (ix2 p q) := by
    funext a; apply Fin.ext
    match a with
    | ⟨0, _⟩ => show win4_1.index t (0 : Fin 2) * 12000 + 1 * p.val = win4_2.index t (0 : Fin 2) * 12000 + 1 * p.val; omega
    | ⟨1, _⟩ => show win4_1.index t (1 : Fin 2) * 10 + 1 * q.val = win4_2.index t (1 : Fin 2) * 10 + 1 * q.val; omega
  show mulE (V c main_v30 (((cfg4.win 0).blk t).view.emb (ix2 p (0 : Fin 1)))) (V c main_v52 (((cfg4.win 1).blk t).view.emb (ix2 p q)))
    = mulE (V c main_v30 (ix2 ((((cfg4.win 2).blk t).view.emb (ix2 p q)) 0) (0 : Fin 1))) (V c main_v52 (((cfg4.win 2).blk t).view.emb (ix2 p q)))
  rw [h0, h1]
  try rfl

/-- An entry of the output array lies in point `t`'s block iff each coordinate lies in the block's range on its axis. -/
theorem mem_block (t : Fin cfg4.N) (i : S4800000x10.Idx) :
    i ∈ ((cfg4.win 2).blk t).view.set ↔ ∀ a : Fin 2, win4_2.index t a * S12000x10.size a ≤ (i a).val ∧ (i a).val < win4_2.index t a * S12000x10.size a + S12000x10.size a := by
  show i ∈ ((View.whole main_v53).slice (win4_2.rect t)).set ↔ _
  rw [View.set_slice_whole, Rect.mem_set_unit]
  exact Iff.rfl

/-- Every entry of the output lies in some point's block: row `r` in the block of point `r / 12000`. -/
theorem covered (i : S4800000x10.Idx) : ∃ t : Fin cfg4.N, (cfg4.win 2).flush t = true ∧ i ∈ ((cfg4.win 2).blk t).view.set := by
  have hi0 : (i 0).val < 4800000 := (i 0).isLt
  have hi1 : (i 1).val < 10 := (i 1).isLt
  have hN : cfg4.N = 400 := N_4
  let t : Fin cfg4.N := ⟨(i 0).val / 12000, by omega⟩
  have ht : t.val = (i 0).val / 12000 := rfl
  obtain ⟨e0, e1, e2, e3, e4, e5⟩ := index_facts t
  refine ⟨t, flush4_2 t, ?_⟩
  rw [mem_block]
  intro a
  match a with
  | ⟨0, _⟩ => show win4_2.index t (0 : Fin 2) * 12000 ≤ (i 0).val ∧ (i 0).val < win4_2.index t (0 : Fin 2) * 12000 + 12000; omega
  | ⟨1, _⟩ => show win4_2.index t (1 : Fin 2) * 10 ≤ (i 1).val ∧ (i 1).val < win4_2.index t (1 : Fin 2) * 10 + 10; omega

/-- The output array after the region: the per-edge product of the two input arrays as the region finds them. -/
theorem final (c : Dev nD) : (dat4 V c).arrAt 2 cfg4.N = Cert.Forms.scaled (E := 4800000) (W := 10) (V c main_v30) (V c main_v52) :=
  (dat4 V c).arrAt_eq_of_cover 2 (Cert.Forms.scaled (E := 4800000) (W := 10) (V c main_v30) (V c main_v52)) (fun t _ => flushed_eq V c t) covered

end Cert.KernelIdeal.Edge10

end
-- ==== Proof.Combine16.lean ====
/-
  Region 2: the combine step of a layer.  Over the 100 000 nodes in 20 blocks of 5 000 rows, each entry `(r, q)` of the
  output is the aggregated neighbour sum at `(r, q)`, plus the node's own transformed feature scaled by the square of
  its inverse-root degree (a one-column array broadcast along the row), plus the bias of column `q` (a one-row array
  broadcast down the rows), cut off below at zero.  Block `t` of the node-indexed windows starts at row `5000·t`; the bias window is its whole
  one-row array at every point.  So what point `t` writes back is block `t` of one function of the four whole arrays, the
  20 blocks tile the output, and the output array ends holding that function everywhere.
-/
import proofs.«109362_j46969762349063_1_alg».proof.Proof.Gen.KernelIdeal.Frame
import proofs.«109362_j46969762349063_1_alg».proof.Proof.LibKeepdims
import proofs.«109362_j46969762349063_1_alg».proof.Proof.LibEntryForms
import Idealize.ShloMosaic.Lib.Pipeline.Value
import Idealize.ShloMosaic.Lib.ValueIdx
import Idealize.ShloMosaic.Lib.ValueLayout

set_option maxRecDepth 16384

noncomputable section

namespace Cert.KernelIdeal.Combine16

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The product and the sum of two extended reals, as functions (so that a buffer's entry is read at the float type). -/
abbrev mulE (a b : Ideal FTy.f32) : Ideal FTy.f32 := a * b
abbrev addE (a b : Ideal FTy.f32) : Ideal FTy.f32 := a + b

theorem zero_offsets : (![0, 0] : Fin 2 → Nat) = fun _ => 0 := funext fun a => by fin_cases a <;> rfl

/-- The body's stored value at an entry of a block. -/
theorem payload_apply (d : Vec Ideal S5000x1 .f32) (a x : Vec Ideal S5000x16 .f32) (b : Vec Ideal S1x16 .f32) (p : Fin 5000) (q : Fin 16) :
    k2_pay1 d a x b (ix2 p q) = max ((a (ix2 p q) + (d (ix2 p (0 : Fin 1)) * d (ix2 p (0 : Fin 1))) * x (ix2 p q)) + b (ix2 (0 : Fin 1) q)) (Ideal.ofBits .f32 0x00000000#32) := by
  unfold k2_pay1
  rw [maximumf_apply, addf_apply, addf_apply, mulf_apply, shapeCast_self, shapeCast_self, shapeCast_self, shapeCast_self, shapeCast_self,
    Cert.Keepdims.broadcastTo_a1_ab_apply, mulf_apply, broadcastTo_1b_ab_apply, broadcast_apply]
  rfl

/-- The five windows' index maps over the 20 grid points: a node-indexed block starts at row `5000·t`, column `0`; the
    bias block is always the one at `(0, 0)`. -/
theorem index_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

variable (V : (c : Dev nD) → (b : Ref sig .tc) → Buf (Elt Ideal) ((c : Thread nD τ).loc b))

/-- What point `t` writes back is block `t` of the combined array of the four arrays as the region finds them. -/
theorem flushed_eq (c : Dev nD) (t : Fin cfg2.N) :
    (dat2 V c).flushed 4 t = ((cfg2.win 4).blk t).view.read (Elt Ideal) (Cert.Forms.positivePart (Cert.Forms.combined (N := 100000) (W := 16) (V c main_v42) (V c main_v31) (V c main_v13) (V c main_v43))) := by
  show (cfg2.win 4).cut (grid2.coords t) ((dat2 V c).after 4 t) = _
  rw [after2_4]
  unfold out2_4
  rw [View.canon_unit_zero zero_offsets]
  simp only [View.ld_unit_zero (S := S5000x1) zero_offsets, View.ld_unit_zero (S := S5000x16) zero_offsets, View.ld_unit_zero (S := S1x16) zero_offsets]
  obtain ⟨e0, e1, e2, e3, e4, e5, e6, e7, e8, e9⟩ := index_facts t
  funext j
  obtain ⟨p, q, rfl⟩ : ∃ (p : Fin 5000) (q : Fin 16), j = ix2 p q := ⟨j 0, j 1, eq_ix2 j⟩
  show k2_pay1 (iblk2 V c 2 t) (iblk2 V c 0 t) (iblk2 V c 1 t) (iblk2 V c 3 t) (ix2 p q)
    = Cert.Forms.positivePart (Cert.Forms.combined (N := 100000) (W := 16) (V c main_v42) (V c main_v31) (V c main_v13) (V c main_v43)) (((cfg2.win 4).blk t).view.emb (ix2 p q))
  refine (payload_apply (iblk2 V c 2 t) (iblk2 V c 0 t) (iblk2 V c 1 t) (iblk2 V c 3 t) p q).trans ?_
  have h0 : ((cfg2.win 0).blk t).view.emb (ix2 p q) = ((cfg2.win 4).blk t).view.emb (ix2 p q) := by
    funext a; apply Fin.ext
    match a with
    | ⟨0, _⟩ => show win2_0.index t (0 : Fin 2) * 5000 + 1 * p.val = win2_4.index t (0 : Fin 2) * 5000 + 1 * p.val; omega
    | ⟨1, _⟩ => show win2_0.index t (1 : Fin 2) * 16 + 1 * q.val = win2_4.index t (1 : Fin 2) * 16 + 1 * q.val; omega
  have h1 : ((cfg2.win 1).blk t).view.emb (ix2 p q) = ((cfg2.win 4).blk t).view.emb (ix2 p q) := by
    funext a; apply Fin.ext
    match a with
    | ⟨0, _⟩ => show win2_1.index t (0 : Fin 2) * 5000 + 1 * p.val = win2_4.index t (0 : Fin 2) * 5000 + 1 * p.val; omega
    | ⟨1, _⟩ => show win2_1.index t (1 : Fin 2) * 16 + 1 * q.val = win2_4.index t (1 : Fin 2) * 16 + 1 * q.val; omega
  have h2 : ((cfg2.win 2).blk t).view.emb (ix2 p (0 : Fin 1)) = ix2 ((((cfg2.win 4).blk t).view.emb (ix2 p q)) 0) (0 : Fin 1) := by
    funext a; apply Fin.ext
    match a with
    | ⟨0, _⟩ => show win2_2.index t (0 : Fin 2) * 5000 + 1 * p.val = win2_4.index t (0 : Fin 2) * 5000 + 1 * p.val; omega
    | ⟨1, _⟩ => show win2_2.index t (1 : Fin 2) * 1 + 1 * 0 = 0; omega
  have h3 : ((cfg2.win 3).blk t).view.emb (ix2 (0 : Fin 1) q) = ix2 (0 : Fin 1) ((((cfg2.win 4).blk t).view.emb (ix2 p q)) 1) := by
    funext a; apply Fin.ext
    match a with
    | ⟨0, _⟩ => show win2_3.index t (0 : Fin 2) * 1 + 1 * 0 = 0; omega
    | ⟨1, _⟩ => show win2_3.index t (1 : Fin 2) * 16 + 1 * q.val = win2_4.index t (1 : Fin 2) * 16 + 1 * q.val; omega
  show max (addE (addE (V c main_v42 (((cfg2.win 0).blk t).view.emb (ix2 p q))) (mulE (mulE (V c main_v13 (((cfg2.win 2).blk t).view.emb (ix2 p (0 : Fin 1)))) (V c main_v13 (((cfg2.win 2).blk t).view.emb (ix2 p (0 : Fin 1))))) (V c main_v31 (((cfg2.win 1).blk t).view.emb (ix2 p q))))) (V c main_v43 (((cfg2.win 3).blk t).view.emb (ix2 (0 : Fin 1) q)))) (Ideal.ofBits .f32 0x00000000#32)
    = max (addE (addE (V c main_v42 (((cfg2.win 4).blk t).view.emb (ix2 p q))) (mulE (mulE (V c main_v13 (ix2 ((((cfg2.win 4).blk t).view.emb (ix2 p q)) 0) (0 : Fin 1))) (V c main_v13 (ix2 ((((cfg2.win 4).blk t).view.emb (ix2 p q)) 0) (0 : Fin 1)))) (V c main_v31 (((cfg2.win 4).blk t).view.emb (ix2 p q))))) (V c main_v43 (ix2 (0 : Fin 1) ((((cfg2.win 4).blk t).view.emb (ix2 p q)) 1)))) (Ideal.ofBits .f32 0x00000000#32)
  rw [h0, h1, h2, h3]
  try rfl

/-- An entry of the output array lies in point `t`'s block iff each coordinate lies in the block's range on its axis. -/
theorem mem_block (t : Fin cfg2.N) (i : S100000x16.Idx) :
    i ∈ ((cfg2.win 4).blk t).view.set ↔ ∀ a : Fin 2, win2_4.index t a * S5000x16.size a ≤ (i a).val ∧ (i a).val < win2_4.index t a * S5000x16.size a + S5000x16.size a := by
  show i ∈ ((View.whole main_v44).slice (win2_4.rect t)).set ↔ _
  rw [View.set_slice_whole, Rect.mem_set_unit]
  exact Iff.rfl

/-- Every entry of the output lies in some point's block: row `r` in the block of point `r / 5000`. -/
theorem covered (i : S100000x16.Idx) : ∃ t : Fin cfg2.N, (cfg2.win 4).flush t = true ∧ i ∈ ((cfg2.win 4).blk t).view.set := by
  have hi0 : (i 0).val < 100000 := (i 0).isLt
  have hi1 : (i 1).val < 16 := (i 1).isLt
  have hN : cfg2.N = 20 := N_2
  let t : Fin cfg2.N := ⟨(i 0).val / 5000, by omega⟩
  have ht : t.val = (i 0).val / 5000 := rfl
  obtain ⟨e0, e1, e2, e3, e4, e5, e6, e7, e8, e9⟩ := index_facts t
  refine ⟨t, flush2_4 t, ?_⟩
  rw [mem_block]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 16 ≤ (i 1).val ∧ (i 1).val < win2_4.index t (1 : Fin 2) * 16 + 16; omega

/-- The output array after the region: the combined array of the four input arrays as the region finds them. -/
theorem final (c : Dev nD) : (dat2 V c).arrAt 4 cfg2.N = Cert.Forms.positivePart (Cert.Forms.combined (N := 100000) (W := 16) (V c main_v42) (V c main_v31) (V c main_v13) (V c main_v43)) :=
  (dat2 V c).arrAt_eq_of_cover 4 (Cert.Forms.positivePart (Cert.Forms.combined (N := 100000) (W := 16) (V c main_v42) (V c main_v31) (V c main_v13) (V c main_v43))) (fun t _ => flushed_eq V c t) covered

end Cert.KernelIdeal.Combine16

end
-- ==== Proof.Combine10.lean ====
/-
  Region 5: the combine step of a layer.  Over the 100 000 nodes in 20 blocks of 5 000 rows, each entry `(r, q)` of the
  output is the aggregated neighbour sum at `(r, q)`, plus the node's own transformed feature scaled by the square of
  its inverse-root degree (a one-column array broadcast along the row), plus the bias of column `q` (a one-row array
  broadcast down the rows).  Block `t` of the node-indexed windows starts at row `5000·t`; the bias window is its whole
  one-row array at every point.  So what point `t` writes back is block `t` of one function of the four whole arrays, the
  20 blocks tile the output, and the output array ends holding that function everywhere.
-/
import proofs.«109362_j46969762349063_1_alg».proof.Proof.Gen.KernelIdeal.Frame
import proofs.«109362_j46969762349063_1_alg».proof.Proof.LibKeepdims
import proofs.«109362_j46969762349063_1_alg».proof.Proof.LibEntryForms
import Idealize.ShloMosaic.Lib.Pipeline.Value
import Idealize.ShloMosaic.Lib.ValueIdx
import Idealize.ShloMosaic.Lib.ValueLayout

set_option maxRecDepth 16384

noncomputable section

namespace Cert.KernelIdeal.Combine10

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The product and the sum of two extended reals, as functions (so that a buffer's entry is read at the float type). -/
abbrev mulE (a b : Ideal FTy.f32) : Ideal FTy.f32 := a * b
abbrev addE (a b : Ideal FTy.f32) : Ideal FTy.f32 := a + b

theorem zero_offsets : (![0, 0] : Fin 2 → Nat) = fun _ => 0 := funext fun a => by fin_cases a <;> rfl

/-- The body's stored value at an entry of a block. -/
theorem payload_apply (d : Vec Ideal S5000x1 .f32) (a x : Vec Ideal S5000x10 .f32) (b : Vec Ideal S1x10 .f32) (p : Fin 5000) (q : Fin 10) :
    k5_pay1 d a x b (ix2 p q) = ((a (ix2 p q) + (d (ix2 p (0 : Fin 1)) * d (ix2 p (0 : Fin 1))) * x (ix2 p q)) + b (ix2 (0 : Fin 1) q)) := by
  unfold k5_pay1
  rw [addf_apply, addf_apply, mulf_apply, shapeCast_self, shapeCast_self, shapeCast_self, shapeCast_self, shapeCast_self,
    Cert.Keepdims.broadcastTo_a1_ab_apply, mulf_apply, broadcastTo_1b_ab_apply]

/-- The five windows' index maps over the 20 grid points: a node-indexed block starts at row `5000·t`, column `0`; the
    bias block is always the one at `(0, 0)`. -/
theorem index_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

variable (V : (c : Dev nD) → (b : Ref sig .tc) → Buf (Elt Ideal) ((c : Thread nD τ).loc b))

set_option maxHeartbeats 1600000 in
/-- What point `t` writes back is block `t` of the combined array of the four arrays as the region finds them. -/
theorem flushed_eq (c : Dev nD) (t : Fin cfg5.N) :
    (dat5 V c).flushed 4 t = ((cfg5.win 4).blk t).view.read (Elt Ideal) (Cert.Forms.combined (N := 100000) (W := 10) (V c main_v56) (V c main_v45) (V c main_v13) (V c main_v57)) := by
  show (cfg5.win 4).cut (grid5.coords t) ((dat5 V c).after 4 t) = _
  rw [after5_4]
  unfold out5_4
  rw [View.canon_unit_zero zero_offsets]
  simp only [View.ld_unit_zero (S := S5000x1) zero_offsets, View.ld_unit_zero (S := S5000x10) zero_offsets, View.ld_unit_zero (S := S1x10) zero_offsets]
  obtain ⟨e0, e1, e2, e3, e4, e5, e6, e7, e8, e9⟩ := index_facts t
  funext j
  obtain ⟨p, q, rfl⟩ : ∃ (p : Fin 5000) (q : Fin 10), j = ix2 p q := ⟨j 0, j 1, eq_ix2 j⟩
  show k5_pay1 (iblk5 V c 2 t) (iblk5 V c 0 t) (iblk5 V c 1 t) (iblk5 V c 3 t) (ix2 p q)
    = Cert.Forms.combined (N := 100000) (W := 10) (V c main_v56) (V c main_v45) (V c main_v13) (V c main_v57) (((cfg5.win 4).blk t).view.emb (ix2 p q))
  refine (payload_apply (iblk5 V c 2 t) (iblk5 V c 0 t) (iblk5 V c 1 t) (iblk5 V c 3 t) p q).trans ?_
  have h0 : ((cfg5.win 0).blk t).view.emb (ix2 p q) = ((cfg5.win 4).blk t).view.emb (ix2 p q) := by
    funext a; apply Fin.ext
    match a with
    | ⟨0, _⟩ => show win5_0.index t (0 : Fin 2) * 5000 + 1 * p.val = win5_4.index t (0 : Fin 2) * 5000 + 1 * p.val; omega
    | ⟨1, _⟩ => show win5_0.index t (1 : Fin 2) * 10 + 1 * q.val = win5_4.index t (1 : Fin 2) * 10 + 1 * q.val; omega
  have h1 : ((cfg5.win 1).blk t).view.emb (ix2 p q) = ((cfg5.win 4).blk t).view.emb (ix2 p q) := by
    funext a; apply Fin.ext
    match a with
    | ⟨0, _⟩ => show win5_1.index t (0 : Fin 2) * 5000 + 1 * p.val = win5_4.index t (0 : Fin 2) * 5000 + 1 * p.val; omega
    | ⟨1, _⟩ => show win5_1.index t (1 : Fin 2) * 10 + 1 * q.val = win5_4.index t (1 : Fin 2) * 10 + 1 * q.val; omega
  have h2 : ((cfg5.win 2).blk t).view.emb (ix2 p (0 : Fin 1)) = ix2 ((((cfg5.win 4).blk t).view.emb (ix2 p q)) 0) (0 : Fin 1) := by
    funext a; apply Fin.ext
    match a with
    | ⟨0, _⟩ => show win5_2.index t (0 : Fin 2) * 5000 + 1 * p.val = win5_4.index t (0 : Fin 2) * 5000 + 1 * p.val; omega
    | ⟨1, _⟩ => show win5_2.index t (1 : Fin 2) * 1 + 1 * 0 = 0; omega
  have h3 : ((cfg5.win 3).blk t).view.emb (ix2 (0 : Fin 1) q) = ix2 (0 : Fin 1) ((((cfg5.win 4).blk t).view.emb (ix2 p q)) 1) := by
    funext a; apply Fin.ext
    match a with
    | ⟨0, _⟩ => show win5_3.index t (0 : Fin 2) * 1 + 1 * 0 = 0; omega
    | ⟨1, _⟩ => show win5_3.index t (1 : Fin 2) * 10 + 1 * q.val = win5_4.index t (1 : Fin 2) * 10 + 1 * q.val; omega
  show (addE (addE (V c main_v56 (((cfg5.win 0).blk t).view.emb (ix2 p q))) (mulE (mulE (V c main_v13 (((cfg5.win 2).blk t).view.emb (ix2 p (0 : Fin 1)))) (V c main_v13 (((cfg5.win 2).blk t).view.emb (ix2 p (0 : Fin 1))))) (V c main_v45 (((cfg5.win 1).blk t).view.emb (ix2 p q))))) (V c main_v57 (((cfg5.win 3).blk t).view.emb (ix2 (0 : Fin 1) q))))
    = (addE (addE (V c main_v56 (((cfg5.win 4).blk t).view.emb (ix2 p q))) (mulE (mulE (V c main_v13 (ix2 ((((cfg5.win 4).blk t).view.emb (ix2 p q)) 0) (0 : Fin 1))) (V c main_v13 (ix2 ((((cfg5.win 4).blk t).view.emb (ix2 p q)) 0) (0 : Fin 1)))) (V c main_v45 (((cfg5.win 4).blk t).view.emb (ix2 p q))))) (V c main_v57 (ix2 (0 : Fin 1) ((((cfg5.win 4).blk t).view.emb (ix2 p q)) 1))))
  rw [h0, h1, h2, h3]
  try rfl

/-- An entry of the output array lies in point `t`'s block iff each coordinate lies in the block's range on its axis. -/
theorem mem_block (t : Fin cfg5.N) (i : S100000x10.Idx) :
    i ∈ ((cfg5.win 4).blk t).view.set ↔ ∀ a : Fin 2, win5_4.index t a * S5000x10.size a ≤ (i a).val ∧ (i a).val < win5_4.index t a * S5000x10.size a + S5000x10.size a := by
  show i ∈ ((View.whole main_v58).slice (win5_4.rect t)).set ↔ _
  rw [View.set_slice_whole, Rect.mem_set_unit]
  exact Iff.rfl

/-- Every entry of the output lies in some point's block: row `r` in the block of point `r / 5000`. -/
theorem covered (i : S100000x10.Idx) : ∃ t : Fin cfg5.N, (cfg5.win 4).flush t = true ∧ i ∈ ((cfg5.win 4).blk t).view.set := by
  have hi0 : (i 0).val < 100000 := (i 0).isLt
  have hi1 : (i 1).val < 10 := (i 1).isLt
  have hN : cfg5.N = 20 := N_5
  let t : Fin cfg5.N := ⟨(i 0).val / 5000, by omega⟩
  have ht : t.val = (i 0).val / 5000 := rfl
  obtain ⟨e0, e1, e2, e3, e4, e5, e6, e7, e8, e9⟩ := index_facts t
  refine ⟨t, flush5_4 t, ?_⟩
  rw [mem_block]
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 10 ≤ (i 1).val ∧ (i 1).val < win5_4.index t (1 : Fin 2) * 10 + 10; omega

/-- The output array after the region: the combined array of the four input arrays as the region finds them. -/
theorem final (c : Dev nD) : (dat5 V c).arrAt 4 cfg5.N = Cert.Forms.combined (N := 100000) (W := 10) (V c main_v56) (V c main_v45) (V c main_v13) (V c main_v57) :=
  (dat5 V c).arrAt_eq_of_cover 4 (Cert.Forms.combined (N := 100000) (W := 10) (V c main_v56) (V c main_v45) (V c main_v13) (V c main_v57)) (fun t _ => flushed_eq V c t) covered

end Cert.KernelIdeal.Combine10

end
-- ==== Proof.RefStages.lean ====
/-
  The reference's result as a composition of named stages.  The reference computes, twice over, a graph-convolution
  layer: the node features times a weight matrix; the degree of every node (the sum of the weights of the edges that
  end at it, plus one for the self loop) and its inverse square root (zero where the degree is not positive); for
  every edge the weight `d(source) · w · d(target)`; the sum, over the edges ending at a node, of that weight times
  the source's transformed features; plus the node's own transformed features scaled by `d²`; plus the bias.  Between
  the two layers it takes the positive part.  The stages below are the reference's own operations, grouped and named;
  that the reference's composed term IS their composition is a matter of unfolding the names.
-/
import proofs.«109362_j46969762349063_1_alg».proof.Proof.Gen.ReferenceIdeal.Run
import Idealize.ShloMosaic.PureOps.Ideal

set_option maxRecDepth 16384

noncomputable section

namespace Cert.ReferenceIdeal.Stages

open Cert.ReferenceIdeal Cert.ReferenceIdeal.Gen Idealize.ShloMosaic Idealize.ShloMosaic.TcCoe Idealize.SL.Sem

/-- The edges' source nodes: row 0 of the edge list. -/
def sources (a1 : IVec S2x4800000 32) : IVec S4800000 32 :=
  shapeCast _ (extractStridedSlice S1x4800000 ![0, 0] a1 slices_S2x4800000_S1x4800000_0_0) shapeCasts_S1x4800000_S4800000

/-- The edges' target nodes: row 1 of the edge list. -/
def targets (a1 : IVec S2x4800000 32) : IVec S4800000 32 :=
  shapeCast _ (extractStridedSlice S1x4800000 ![1, 0] a1 slices_S2x4800000_S1x4800000_1_0) shapeCasts_S1x4800000_S4800000

/-- Node numbers as gather indices: a negative number counts from the end; one index per row. -/
def wrapped (r : IVec S4800000 32) : IVec S4800000x1 32 :=
  broadcastInDim S4800000x1 ![0] bcast_S4800000_S4800000x1_0 (select (cmpi .slt r (broadcastInDim S4800000 ![] bcast_S_S4800000 (constantI S_ 32 0#32))) (addi r (broadcastInDim S4800000 ![] bcast_S_S4800000 (constantI S_ 32 100000#32))) r)

/-- Node numbers as scatter indices, one per row. -/
def asColumn (r : IVec S4800000 32) : IVec S4800000x1 32 :=
  broadcastInDim S4800000x1 ![0] bcast_S4800000_S4800000x1_0 r

/-- A node's degree: the weights of the edges ending at it, plus one. -/
def degree (a1 : IVec S2x4800000 32) (a2 : FVec Ideal S4800000 .f32) : FVec Ideal S100000 .f32 :=
  addf (Host.scatterAdd scatter_S100000_S4800000x1_S4800000_n_0_0_1 (broadcastInDim S100000 ![] bcast_S_S100000 (constant S_ .f32 0x00000000#32)) (asColumn (targets a1)) a2) (broadcastInDim S100000 ![] bcast_S_S100000 (constant S_ .f32 0x3F800000#32))

/-- The inverse square root of the degree where it is positive, zero elsewhere. -/
def invRoot (a1 : IVec S2x4800000 32) (a2 : FVec Ideal S4800000 .f32) : FVec Ideal S100000 .f32 :=
  select (cmpf .ogt (degree a1 a2) (broadcastInDim S100000 ![] bcast_S_S100000 (constant S_ .f32 0x00000000#32))) (Host.rsqrt (degree a1 a2)) (broadcastInDim S100000 ![] bcast_S_S100000 (id (constant S_ .f32 0x00000000#32)))

/-- An edge's normalised weight `d(source) · w · d(target)`, as a column. -/
def weight (a1 : IVec S2x4800000 32) (a2 : FVec Ideal S4800000 .f32) : FVec Ideal S4800000x1 .f32 :=
  broadcastInDim S4800000x1 ![0] bcast_S4800000_S4800000x1_0 (mulf (mulf (Host.gather gather_S100000_S4800000x1_S4800000_n_0_n_n_0_1_1 (invRoot a1 a2) (wrapped (sources a1))) a2) (Host.gather gather_S100000_S4800000x1_S4800000_n_0_n_n_0_1_1 (invRoot a1 a2) (wrapped (targets a1))))

/-- The sum over incoming edges of weight × the source's features, 16 features wide. -/
def aggregate16 (a1 : IVec S2x4800000 32) (contrib : FVec Ideal S4800000x16 .f32) : FVec Ideal S100000x16 .f32 :=
  Host.scatterAdd scatter_S100000x16_S4800000x1_S4800000x16_1_0_0_1 (broadcastInDim S100000x16 ![] bcast_S_S100000x16 (constant S_ .f32 0x00000000#32)) (asColumn (targets a1)) contrib

/-- The sum over incoming edges of weight × the source's features, 10 features wide. -/
def aggregate10 (a1 : IVec S2x4800000 32) (contrib : FVec Ideal S4800000x10 .f32) : FVec Ideal S100000x10 .f32 :=
  Host.scatterAdd scatter_S100000x10_S4800000x1_S4800000x10_1_0_0_1 (broadcastInDim S100000x10 ![] bcast_S_S100000x10 (constant S_ .f32 0x00000000#32)) (asColumn (targets a1)) contrib

/-- The features of every edge's source node, 16 wide. -/
def atSources16 (a1 : IVec S2x4800000 32) (x : FVec Ideal S100000x16 .f32) : FVec Ideal S4800000x16 .f32 :=
  Host.gather gather_S100000x16_S4800000x1_S4800000x16_1_0_n_n_0_1_116 x (wrapped (sources a1))

/-- The features of every edge's source node, 10 wide. -/
def atSources10 (a1 : IVec S2x4800000 32) (x : FVec Ideal S100000x10 .f32) : FVec Ideal S4800000x10 .f32 :=
  Host.gather gather_S100000x10_S4800000x1_S4800000x10_1_0_n_n_0_1_110 x (wrapped (sources a1))

/-- One layer on 16 transformed features: aggregate, add the self loop, add the bias. -/
def layer16 (x : FVec Ideal S100000x16 .f32) (a1 : IVec S2x4800000 32) (a2 : FVec Ideal S4800000 .f32) (b : FVec Ideal S16 .f32) : FVec Ideal S100000x16 .f32 :=
  addf (addf (aggregate16 a1 (mulf (broadcastInDim S4800000x16 ![0, 1] bcast_S4800000x1_S4800000x16_0_1 (weight a1 a2)) (atSources16 a1 x))) (mulf (broadcastInDim S100000x16 ![0, 1] bcast_S100000x1_S100000x16_0_1 (broadcastInDim S100000x1 ![0] bcast_S100000_S100000x1_0 (mulf (invRoot a1 a2) (invRoot a1 a2)))) x)) (broadcastInDim S100000x16 ![0, 1] bcast_S1x16_S100000x16_0_1 (broadcastInDim S1x16 ![1] bcast_S16_S1x16_1 b))

/-- One layer on 10 transformed features. -/
def layer10 (x : FVec Ideal S100000x10 .f32) (a1 : IVec S2x4800000 32) (a2 : FVec Ideal S4800000 .f32) (b : FVec Ideal S10 .f32) : FVec Ideal S100000x10 .f32 :=
  addf (addf (aggregate10 a1 (mulf (broadcastInDim S4800000x10 ![0, 1] bcast_S4800000x1_S4800000x10_0_1 (weight a1 a2)) (atSources10 a1 x))) (mulf (broadcastInDim S100000x10 ![0, 1] bcast_S100000x1_S100000x10_0_1 (broadcastInDim S100000x1 ![0] bcast_S100000_S100000x1_0 (mulf (invRoot a1 a2) (invRoot a1 a2)))) x)) (broadcastInDim S100000x10 ![0, 1] bcast_S1x10_S100000x10_0_1 (broadcastInDim S1x10 ![1] bcast_S10_S1x10_1 b))

/-- The hidden features: the first layer's positive part. -/
def hidden (a0 : FVec Ideal S100000x1 .f32) (a1 : IVec S2x4800000 32) (a2 : FVec Ideal S4800000 .f32) (a3 : FVec Ideal S1x16 .f32) (a4 : FVec Ideal S16 .f32) : FVec Ideal S100000x16 .f32 :=
  maximumf (layer16 (Host.dotGeneral dot_S100000x1_S1x16_S100000x16_1_0_0_1_n_n none a0 a3) a1 a2 a4) (broadcastInDim S100000x16 ![] bcast_S_S100000x16 (constant S_ .f32 0x00000000#32))

/-- The two-layer network. -/
def network (a0 : FVec Ideal S100000x1 .f32) (a1 : IVec S2x4800000 32) (a2 : FVec Ideal S4800000 .f32) (a3 : FVec Ideal S1x16 .f32) (a4 : FVec Ideal S16 .f32)
    (a5 : FVec Ideal S16x10 .f32) (a6 : FVec Ideal S10 .f32) : FVec Ideal S100000x10 .f32 :=
  layer10 (Host.dotGeneral dot_S100000x16_S16x10_S100000x10_1_0_0_1_n_n none (hidden a0 a1 a2 a3 a4) a5) a1 a2 a6

/-- The reference's composed term is the network of its argument arrays. -/
theorem reference_result (m : (ℓ : Loc nD τ sig) → Buf (Elt Ideal) ℓ) (c : Dev nD) :
    Cert.ReferenceIdeal.Value.res_main_v102 m c
      = network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  unfold Cert.ReferenceIdeal.Value.res_main_v102 network hidden layer10 layer16 atSources10 atSources16 aggregate10 aggregate16 weight invRoot degree asColumn wrapped targets sources
  rfl

end Cert.ReferenceIdeal.Stages

end
-- ==== Proof.Bridge.lean ====
/-
  The kernel's result and the reference's are one function of the argument arrays.  Both programs compute the same
  two-layer network by the same host operations around it — the same gathers, the same scatter-adds, the same
  degrees and edge weights —; they differ only inside the six regions, where the kernel's entry-by-entry forms
  (a matrix product as a sum over the contracted coordinate, a per-edge product, a combine step, a positive part) stand
  where the reference has whole-array host operations.  Each entry-by-entry form IS the host's operation at the exact
  values (no law of arithmetic is needed, so the inputs' finiteness is never used); rewriting the six of them turns the
  kernel's composition into the reference's, stage for stage.
-/
import proofs.«109362_j46969762349063_1_alg».proof.Proof.RefStages
import proofs.«109362_j46969762349063_1_alg».proof.Proof.LibEntryForms
import proofs.«109362_j46969762349063_1_alg».proof.Proof.Gen.KernelIdeal

set_option maxRecDepth 16384

noncomputable section

namespace Cert.Bridge

open Idealize.ShloMosaic Idealize.ShloMosaic.TcCoe

/-- What the kernel's result array ends holding, stage by stage: the regions' outputs in their entry-by-entry forms,
    the host stretches' gathers and scatter-adds as they are. -/
def kernelNetwork (a0 : FVec Ideal Cert.ReferenceIdeal.S100000x1 .f32) (a1 : IVec Cert.ReferenceIdeal.S2x4800000 32) (a2 : FVec Ideal Cert.ReferenceIdeal.S4800000 .f32)
    (a3 : FVec Ideal Cert.ReferenceIdeal.S1x16 .f32) (a4 : FVec Ideal Cert.ReferenceIdeal.S16 .f32) (a5 : FVec Ideal Cert.ReferenceIdeal.S16x10 .f32) (a6 : FVec Ideal Cert.ReferenceIdeal.S10 .f32) :
    FVec Ideal Cert.ReferenceIdeal.S100000x10 .f32 :=
  Cert.Forms.combined (N := 100000) (W := 10) (Cert.ReferenceIdeal.Stages.aggregate10 a1 (Cert.Forms.scaled (E := 4800000) (W := 10) (Cert.ReferenceIdeal.Stages.weight a1 a2) (Cert.ReferenceIdeal.Stages.atSources10 a1 (Cert.Forms.product (N := 100000) (K := 16) (M := 10) (Cert.Forms.positivePart (Cert.Forms.combined (N := 100000) (W := 16) (Cert.ReferenceIdeal.Stages.aggregate16 a1 (Cert.Forms.scaled (E := 4800000) (W := 16) (Cert.ReferenceIdeal.Stages.weight a1 a2) (Cert.ReferenceIdeal.Stages.atSources16 a1 (Cert.Forms.product (N := 100000) (K := 1) (M := 16) a0 a3)))) (Cert.Forms.product (N := 100000) (K := 1) (M := 16) a0 a3) (broadcastInDim Cert.ReferenceIdeal.S100000x1 ![0] Cert.ReferenceIdeal.Gen.bcast_S100000_S100000x1_0 (Cert.ReferenceIdeal.Stages.invRoot a1 a2)) (shapeCast Cert.KernelIdeal.S1x16 a4 Cert.KernelIdeal.Gen.shapeCasts_S16_S1x16))) a5)))) (Cert.Forms.product (N := 100000) (K := 16) (M := 10) (Cert.Forms.positivePart (Cert.Forms.combined (N := 100000) (W := 16) (Cert.ReferenceIdeal.Stages.aggregate16 a1 (Cert.Forms.scaled (E := 4800000) (W := 16) (Cert.ReferenceIdeal.Stages.weight a1 a2) (Cert.ReferenceIdeal.Stages.atSources16 a1 (Cert.Forms.product (N := 100000) (K := 1) (M := 16) a0 a3)))) (Cert.Forms.product (N := 100000) (K := 1) (M := 16) a0 a3) (broadcastInDim Cert.ReferenceIdeal.S100000x1 ![0] Cert.ReferenceIdeal.Gen.bcast_S100000_S100000x1_0 (Cert.ReferenceIdeal.Stages.invRoot a1 a2)) (shapeCast Cert.KernelIdeal.S1x16 a4 Cert.KernelIdeal.Gen.shapeCasts_S16_S1x16))) a5) (broadcastInDim Cert.ReferenceIdeal.S100000x1 ![0] Cert.ReferenceIdeal.Gen.bcast_S100000_S100000x1_0 (Cert.ReferenceIdeal.Stages.invRoot a1 a2)) (shapeCast Cert.KernelIdeal.S1x10 a6 Cert.KernelIdeal.Gen.shapeCasts_S10_S1x10)

/-- A layer's linear transform on one input feature is the reference's dot_general. -/
theorem linear16 (x : FVec Ideal Cert.ReferenceIdeal.S100000x1 .f32) (w : FVec Ideal Cert.ReferenceIdeal.S1x16 .f32) :
    Cert.Forms.product (N := 100000) (K := 1) (M := 16) x w = Host.dotGeneral Cert.ReferenceIdeal.dot_S100000x1_S1x16_S100000x16_1_0_0_1_n_n none x w :=
  Cert.Forms.product_eq_host x w none

/-- A layer's linear transform on sixteen hidden features is the reference's dot_general. -/
theorem linear10 (x : FVec Ideal Cert.ReferenceIdeal.S100000x16 .f32) (w : FVec Ideal Cert.ReferenceIdeal.S16x10 .f32) :
    Cert.Forms.product (N := 100000) (K := 16) (M := 10) x w = Host.dotGeneral Cert.ReferenceIdeal.dot_S100000x16_S16x10_S100000x10_1_0_0_1_n_n none x w :=
  Cert.Forms.product_eq_host x w none

/-- The per-edge product, 16 wide, is the reference's broadcast and multiply. -/
theorem edge16 (n : FVec Ideal Cert.ReferenceIdeal.S4800000x1 .f32) (g : FVec Ideal Cert.ReferenceIdeal.S4800000x16 .f32) :
    Cert.Forms.scaled (E := 4800000) (W := 16) n g = mulf (broadcastInDim Cert.ReferenceIdeal.S4800000x16 ![0, 1] Cert.ReferenceIdeal.Gen.bcast_S4800000x1_S4800000x16_0_1 n) g :=
  Cert.Forms.scaled_eq_host n g Cert.ReferenceIdeal.Gen.bcast_S4800000x1_S4800000x16_0_1

/-- The per-edge product, 10 wide, is the reference's broadcast and multiply. -/
theorem edge10 (n : FVec Ideal Cert.ReferenceIdeal.S4800000x1 .f32) (g : FVec Ideal Cert.ReferenceIdeal.S4800000x10 .f32) :
    Cert.Forms.scaled (E := 4800000) (W := 10) n g = mulf (broadcastInDim Cert.ReferenceIdeal.S4800000x10 ![0, 1] Cert.ReferenceIdeal.Gen.bcast_S4800000x1_S4800000x10_0_1 n) g :=
  Cert.Forms.scaled_eq_host n g Cert.ReferenceIdeal.Gen.bcast_S4800000x1_S4800000x10_0_1

/-- The combine step, 16 wide, is the reference's self-loop and bias additions. -/
theorem combine16 (agg xp : FVec Ideal Cert.ReferenceIdeal.S100000x16 .f32) (d : FVec Ideal Cert.ReferenceIdeal.S100000 .f32) (b : FVec Ideal Cert.ReferenceIdeal.S16 .f32) :
    Cert.Forms.combined (N := 100000) (W := 16) agg xp (broadcastInDim Cert.ReferenceIdeal.S100000x1 ![0] Cert.ReferenceIdeal.Gen.bcast_S100000_S100000x1_0 d) (shapeCast Cert.KernelIdeal.S1x16 b Cert.KernelIdeal.Gen.shapeCasts_S16_S1x16)
      = addf (addf agg (mulf (broadcastInDim Cert.ReferenceIdeal.S100000x16 ![0, 1] Cert.ReferenceIdeal.Gen.bcast_S100000x1_S100000x16_0_1 (broadcastInDim Cert.ReferenceIdeal.S100000x1 ![0] Cert.ReferenceIdeal.Gen.bcast_S100000_S100000x1_0 (mulf d d))) xp))
          (broadcastInDim Cert.ReferenceIdeal.S100000x16 ![0, 1] Cert.ReferenceIdeal.Gen.bcast_S1x16_S100000x16_0_1 (broadcastInDim Cert.ReferenceIdeal.S1x16 ![1] Cert.ReferenceIdeal.Gen.bcast_S16_S1x16_1 b)) :=
  Cert.Forms.combined_eq_host agg xp d b Cert.ReferenceIdeal.Gen.bcast_S100000_S100000x1_0 Cert.ReferenceIdeal.Gen.bcast_S100000x1_S100000x16_0_1 Cert.KernelIdeal.Gen.shapeCasts_S16_S1x16 Cert.ReferenceIdeal.Gen.bcast_S16_S1x16_1 Cert.ReferenceIdeal.Gen.bcast_S1x16_S100000x16_0_1

/-- The combine step, 10 wide, is the reference's self-loop and bias additions. -/
theorem combine10 (agg xp : FVec Ideal Cert.ReferenceIdeal.S100000x10 .f32) (d : FVec Ideal Cert.ReferenceIdeal.S100000 .f32) (b : FVec Ideal Cert.ReferenceIdeal.S10 .f32) :
    Cert.Forms.combined (N := 100000) (W := 10) agg xp (broadcastInDim Cert.ReferenceIdeal.S100000x1 ![0] Cert.ReferenceIdeal.Gen.bcast_S100000_S100000x1_0 d) (shapeCast Cert.KernelIdeal.S1x10 b Cert.KernelIdeal.Gen.shapeCasts_S10_S1x10)
      = addf (addf agg (mulf (broadcastInDim Cert.ReferenceIdeal.S100000x10 ![0, 1] Cert.ReferenceIdeal.Gen.bcast_S100000x1_S100000x10_0_1 (broadcastInDim Cert.ReferenceIdeal.S100000x1 ![0] Cert.ReferenceIdeal.Gen.bcast_S100000_S100000x1_0 (mulf d d))) xp))
          (broadcastInDim Cert.ReferenceIdeal.S100000x10 ![0, 1] Cert.ReferenceIdeal.Gen.bcast_S1x10_S100000x10_0_1 (broadcastInDim Cert.ReferenceIdeal.S1x10 ![1] Cert.ReferenceIdeal.Gen.bcast_S10_S1x10_1 b)) :=
  Cert.Forms.combined_eq_host agg xp d b Cert.ReferenceIdeal.Gen.bcast_S100000_S100000x1_0 Cert.ReferenceIdeal.Gen.bcast_S100000x1_S100000x10_0_1 Cert.KernelIdeal.Gen.shapeCasts_S10_S1x10 Cert.ReferenceIdeal.Gen.bcast_S10_S1x10_1 Cert.ReferenceIdeal.Gen.bcast_S1x10_S100000x10_0_1

/-- The positive part is the reference's maximum with a broadcast zero. -/
theorem relu16 (x : FVec Ideal Cert.ReferenceIdeal.S100000x16 .f32) :
    Cert.Forms.positivePart x = maximumf x (broadcastInDim Cert.ReferenceIdeal.S100000x16 ![] Cert.ReferenceIdeal.Gen.bcast_S_S100000x16 (constant (F := Ideal) Cert.ReferenceIdeal.S_ .f32 0x00000000#32)) :=
  Cert.Forms.positivePart_eq_host x Cert.ReferenceIdeal.Gen.bcast_S_S100000x16

/-- The kernel's stages compose to the reference's network. -/
theorem kernelNetwork_eq (a0 : FVec Ideal Cert.ReferenceIdeal.S100000x1 .f32) (a1 : IVec Cert.ReferenceIdeal.S2x4800000 32) (a2 : FVec Ideal Cert.ReferenceIdeal.S4800000 .f32)
    (a3 : FVec Ideal Cert.ReferenceIdeal.S1x16 .f32) (a4 : FVec Ideal Cert.ReferenceIdeal.S16 .f32) (a5 : FVec Ideal Cert.ReferenceIdeal.S16x10 .f32) (a6 : FVec Ideal Cert.ReferenceIdeal.S10 .f32) :
    kernelNetwork a0 a1 a2 a3 a4 a5 a6 = Cert.ReferenceIdeal.Stages.network a0 a1 a2 a3 a4 a5 a6 := by
  unfold kernelNetwork
  rw [linear16, edge16, combine16, relu16, linear10, edge10, combine10]
  unfold Cert.ReferenceIdeal.Stages.network Cert.ReferenceIdeal.Stages.hidden Cert.ReferenceIdeal.Stages.layer10 Cert.ReferenceIdeal.Stages.layer16
  rfl

end Cert.Bridge

end
-- ==== Proof.Boundaries.lean ====
/-
  The kernel's buffers at each segment boundary, as functions of the argument arrays.  The generated frame certificate
  names the contents of every buffer at the thirteen boundaries between @main's segments (`Gen.W0` … `Gen.W13`): a stretch
  of host operations maps the contents by the operations' fold, a region replaces its output array by what its
  write-backs leave and keeps every other buffer.  Walking the boundaries in order, each buffer a later segment reads is
  given its value: the edge lists, the inverse-root degrees and the edge weights come from the first host stretches
  and are kept to the end; a region's output is the entry-by-entry form proved for that region, of the values its
  input windows' arrays have at its entry; a host stretch's gather or scatter-add is applied to those values as a
  whole, never opened.  The last lemma gives the result array at the last boundary.
-/
import proofs.«109362_j46969762349063_1_alg».proof.Proof.Gen.KernelIdeal.Frame
import proofs.«109362_j46969762349063_1_alg».proof.Proof.Linear16
import proofs.«109362_j46969762349063_1_alg».proof.Proof.Linear10
import proofs.«109362_j46969762349063_1_alg».proof.Proof.Edge16
import proofs.«109362_j46969762349063_1_alg».proof.Proof.Edge10
import proofs.«109362_j46969762349063_1_alg».proof.Proof.Combine16
import proofs.«109362_j46969762349063_1_alg».proof.Proof.Combine10
import proofs.«109362_j46969762349063_1_alg».proof.Proof.RefStages
import proofs.«109362_j46969762349063_1_alg».proof.Proof.LibEntryForms
import proofs.«109362_j46969762349063_1_alg».proof.Proof.Bridge
import Idealize.ShloMosaic.Lib.StableHlo.Run

set_option maxRecDepth 16384

noncomputable section

namespace Cert.KernelIdeal.Boundaries

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## Before the first region: the edge lists, the inverse-root degrees, the edge weights -/

theorem W1_v1 : W1 m ρ c (Proc.devRef .tc main_v1) = Cert.ReferenceIdeal.Stages.sources (m ((c : Thread nD τ).loc main_arg1)) := by
  show StableHlo.after hostOps0 (W0 m ρ c) (Proc.devRef .tc main_v1) = _
  unfold hostOps0
  after_results_simp
  rfl
theorem W1_v3 : W1 m ρ c (Proc.devRef .tc main_v3) = Cert.ReferenceIdeal.Stages.targets (m ((c : Thread nD τ).loc main_arg1)) := by
  show StableHlo.after hostOps0 (W0 m ρ c) (Proc.devRef .tc main_v3) = _
  unfold hostOps0
  after_results_simp
  rfl
theorem W1_v10 : W1 m ρ c (Proc.devRef .tc main_v10) = cmpf .ogt (Cert.ReferenceIdeal.Stages.degree (m ((c : Thread nD τ).loc main_arg1)) (m ((c : Thread nD τ).loc main_arg2))) (broadcastInDim Cert.ReferenceIdeal.S100000 ![] Cert.ReferenceIdeal.Gen.bcast_S_S100000 (constant (F := Ideal) Cert.ReferenceIdeal.S_ .f32 0x00000000#32)) := by
  show StableHlo.after hostOps0 (W0 m ρ c) (Proc.devRef .tc main_v10) = _
  unfold hostOps0
  after_results_simp
  rfl
theorem W1_v11 : W1 m ρ c (Proc.devRef .tc main_v11) = Host.rsqrt (F := Ideal) (Cert.ReferenceIdeal.Stages.degree (m ((c : Thread nD τ).loc main_arg1)) (m ((c : Thread nD τ).loc main_arg2))) := by
  show StableHlo.after hostOps0 (W0 m ρ c) (Proc.devRef .tc main_v11) = _
  unfold hostOps0
  after_results_simp
  rfl
theorem W1_cst_2 : W1 m ρ c (Proc.devRef .tc main_cst_2) = constant (F := Ideal) Cert.ReferenceIdeal.S_ .f32 0x00000000#32 := by
  show StableHlo.after hostOps0 (W0 m ρ c) (Proc.devRef .tc main_cst_2) = _
  unfold hostOps0
  after_results_simp
theorem W1_arg0 : W1 m ρ c (Proc.devRef .tc main_arg0) = (m ((c : Thread nD τ).loc main_arg0)) := by
  show StableHlo.after hostOps0 (W0 m ρ c) (Proc.devRef .tc main_arg0) = _
  unfold hostOps0
  after_results_simp
theorem W1_arg2 : W1 m ρ c (Proc.devRef .tc main_arg2) = (m ((c : Thread nD τ).loc main_arg2)) := by
  show StableHlo.after hostOps0 (W0 m ρ c) (Proc.devRef .tc main_arg2) = _
  unfold hostOps0
  after_results_simp
theorem W1_arg3 : W1 m ρ c (Proc.devRef .tc main_arg3) = (m ((c : Thread nD τ).loc main_arg3)) := by
  show StableHlo.after hostOps0 (W0 m ρ c) (Proc.devRef .tc main_arg3) = _
  unfold hostOps0
  after_results_simp
theorem W1_arg4 : W1 m ρ c (Proc.devRef .tc main_arg4) = (m ((c : Thread nD τ).loc main_arg4)) := by
  show StableHlo.after hostOps0 (W0 m ρ c) (Proc.devRef .tc main_arg4) = _
  unfold hostOps0
  after_results_simp
theorem W1_arg5 : W1 m ρ c (Proc.devRef .tc main_arg5) = (m ((c : Thread nD τ).loc main_arg5)) := by
  show StableHlo.after hostOps0 (W0 m ρ c) (Proc.devRef .tc main_arg5) = _
  unfold hostOps0
  after_results_simp
theorem W1_arg6 : W1 m ρ c (Proc.devRef .tc main_arg6) = (m ((c : Thread nD τ).loc main_arg6)) := by
  show StableHlo.after hostOps0 (W0 m ρ c) (Proc.devRef .tc main_arg6) = _
  unfold hostOps0
  after_results_simp

/-- The outlined `where` read at its result: whatever the three operands hold, the selection between the second and
    the third, the third broadcast from a scalar. -/
theorem where_read (Vp : Valuation τ sig (Elt Ideal)) (p : IVec S100000 1) (r : FVec Ideal S100000 .f32) (z : FVec Ideal S_ .f32)
    (h10 : Vp (Proc.devRef .tc main_v10) = p) (h11 : Vp (Proc.devRef .tc main_v11) = r) (hz : Vp (Proc.devRef .tc main_cst_2) = z) :
    StableHlo.after hostOps0_1 Vp (Proc.devRef .tc main_v12) = select p r (broadcastInDim S100000 ![] bcast_S_S100000 (id z)) := by
  unfold hostOps0_1
  after_results_simp
  rw [h10, h11, hz]
  rfl

/-- The inverse-root degrees: the `where` of the degree's positivity, its inverse root and zero. -/
theorem W2_v12 : W2 m ρ c (Proc.devRef .tc main_v12) = Cert.ReferenceIdeal.Stages.invRoot (m ((c : Thread nD τ).loc main_arg1)) (m ((c : Thread nD τ).loc main_arg2)) :=
  (where_read (W1 m ρ c) _ _ _ (W1_v10 m ρ c) (W1_v11 m ρ c) (W1_cst_2 m ρ c)).trans rfl
theorem W2_v1 : W2 m ρ c (Proc.devRef .tc main_v1) = Cert.ReferenceIdeal.Stages.sources (m ((c : Thread nD τ).loc main_arg1)) :=
  (show StableHlo.after hostOps0_1 (W1 m ρ c) (Proc.devRef .tc main_v1) = W1 m ρ c (Proc.devRef .tc main_v1) from by
    generalize W1 m ρ c = Vp; unfold hostOps0_1; after_results).trans (W1_v1 m ρ c)
theorem W2_v3 : W2 m ρ c (Proc.devRef .tc main_v3) = Cert.ReferenceIdeal.Stages.targets (m ((c : Thread nD τ).loc main_arg1)) :=
  (show StableHlo.after hostOps0_1 (W1 m ρ c) (Proc.devRef .tc main_v3) = W1 m ρ c (Proc.devRef .tc main_v3) from by
    generalize W1 m ρ c = Vp; unfold hostOps0_1; after_results).trans (W1_v3 m ρ c)
theorem W2_arg0 : W2 m ρ c (Proc.devRef .tc main_arg0) = (m ((c : Thread nD τ).loc main_arg0)) :=
  (show StableHlo.after hostOps0_1 (W1 m ρ c) (Proc.devRef .tc main_arg0) = W1 m ρ c (Proc.devRef .tc main_arg0) from by
    generalize W1 m ρ c = Vp; unfold hostOps0_1; after_results).trans (W1_arg0 m ρ c)
theorem W2_arg2 : W2 m ρ c (Proc.devRef .tc main_arg2) = (m ((c : Thread nD τ).loc main_arg2)) :=
  (show StableHlo.after hostOps0_1 (W1 m ρ c) (Proc.devRef .tc main_arg2) = W1 m ρ c (Proc.devRef .tc main_arg2) from by
    generalize W1 m ρ c = Vp; unfold hostOps0_1; after_results).trans (W1_arg2 m ρ c)
theorem W2_arg3 : W2 m ρ c (Proc.devRef .tc main_arg3) = (m ((c : Thread nD τ).loc main_arg3)) :=
  (show StableHlo.after hostOps0_1 (W1 m ρ c) (Proc.devRef .tc main_arg3) = W1 m ρ c (Proc.devRef .tc main_arg3) from by
    generalize W1 m ρ c = Vp; unfold hostOps0_1; after_results).trans (W1_arg3 m ρ c)
theorem W2_arg4 : W2 m ρ c (Proc.devRef .tc main_arg4) = (m ((c : Thread nD τ).loc main_arg4)) :=
  (show StableHlo.after hostOps0_1 (W1 m ρ c) (Proc.devRef .tc main_arg4) = W1 m ρ c (Proc.devRef .tc main_arg4) from by
    generalize W1 m ρ c = Vp; unfold hostOps0_1; after_results).trans (W1_arg4 m ρ c)
theorem W2_arg5 : W2 m ρ c (Proc.devRef .tc main_arg5) = (m ((c : Thread nD τ).loc main_arg5)) :=
  (show StableHlo.after hostOps0_1 (W1 m ρ c) (Proc.devRef .tc main_arg5) = W1 m ρ c (Proc.devRef .tc main_arg5) from by
    generalize W1 m ρ c = Vp; unfold hostOps0_1; after_results).trans (W1_arg5 m ρ c)
theorem W2_arg6 : W2 m ρ c (Proc.devRef .tc main_arg6) = (m ((c : Thread nD τ).loc main_arg6)) :=
  (show StableHlo.after hostOps0_1 (W1 m ρ c) (Proc.devRef .tc main_arg6) = W1 m ρ c (Proc.devRef .tc main_arg6) from by
    generalize W1 m ρ c = Vp; unfold hostOps0_1; after_results).trans (W1_arg6 m ρ c)

theorem W3_v13 : W3 m ρ c (Proc.devRef .tc main_v13) = (broadcastInDim Cert.ReferenceIdeal.S100000x1 ![0] Cert.ReferenceIdeal.Gen.bcast_S100000_S100000x1_0 (Cert.ReferenceIdeal.Stages.invRoot (m ((c : Thread nD τ).loc main_arg1)) (m ((c : Thread nD τ).loc main_arg2)))) := by
  have h12 := W2_v12 m ρ c
  show StableHlo.after hostOps0_2 (W2 m ρ c) (Proc.devRef .tc main_v13) = _
  generalize W2 m ρ c = Vp at h12 ⊢
  unfold hostOps0_2
  after_results
  rw [h12]
theorem W3_v30 : W3 m ρ c (Proc.devRef .tc main_v30) = (Cert.ReferenceIdeal.Stages.weight (m ((c : Thread nD τ).loc main_arg1)) (m ((c : Thread nD τ).loc main_arg2))) := by
  have h12 := W2_v12 m ρ c
  have h1 := W2_v1 m ρ c
  have h3 := W2_v3 m ρ c
  have h2 := W2_arg2 m ρ c
  show StableHlo.after hostOps0_2 (W2 m ρ c) (Proc.devRef .tc main_v30) = _
  generalize W2 m ρ c = Vp at h12 h1 h3 h2 ⊢
  unfold hostOps0_2
  after_results_simp
  rw [h12, h1, h3, h2]
  rfl
theorem W3_v1 : W3 m ρ c (Proc.devRef .tc main_v1) = Cert.ReferenceIdeal.Stages.sources (m ((c : Thread nD τ).loc main_arg1)) :=
  (show StableHlo.after hostOps0_2 (W2 m ρ c) (Proc.devRef .tc main_v1) = W2 m ρ c (Proc.devRef .tc main_v1) from by
    generalize W2 m ρ c = Vp; unfold hostOps0_2; after_results).trans (W2_v1 m ρ c)
theorem W3_v3 : W3 m ρ c (Proc.devRef .tc main_v3) = Cert.ReferenceIdeal.Stages.targets (m ((c : Thread nD τ).loc main_arg1)) :=
  (show StableHlo.after hostOps0_2 (W2 m ρ c) (Proc.devRef .tc main_v3) = W2 m ρ c (Proc.devRef .tc main_v3) from by
    generalize W2 m ρ c = Vp; unfold hostOps0_2; after_results).trans (W2_v3 m ρ c)
theorem W3_arg0 : W3 m ρ c (Proc.devRef .tc main_arg0) = (m ((c : Thread nD τ).loc main_arg0)) :=
  (show StableHlo.after hostOps0_2 (W2 m ρ c) (Proc.devRef .tc main_arg0) = W2 m ρ c (Proc.devRef .tc main_arg0) from by
    generalize W2 m ρ c = Vp; unfold hostOps0_2; after_results).trans (W2_arg0 m ρ c)
theorem W3_arg3 : W3 m ρ c (Proc.devRef .tc main_arg3) = (m ((c : Thread nD τ).loc main_arg3)) :=
  (show StableHlo.after hostOps0_2 (W2 m ρ c) (Proc.devRef .tc main_arg3) = W2 m ρ c (Proc.devRef .tc main_arg3) from by
    generalize W2 m ρ c = Vp; unfold hostOps0_2; after_results).trans (W2_arg3 m ρ c)
theorem W3_arg4 : W3 m ρ c (Proc.devRef .tc main_arg4) = (m ((c : Thread nD τ).loc main_arg4)) :=
  (show StableHlo.after hostOps0_2 (W2 m ρ c) (Proc.devRef .tc main_arg4) = W2 m ρ c (Proc.devRef .tc main_arg4) from by
    generalize W2 m ρ c = Vp; unfold hostOps0_2; after_results).trans (W2_arg4 m ρ c)
theorem W3_arg5 : W3 m ρ c (Proc.devRef .tc main_arg5) = (m ((c : Thread nD τ).loc main_arg5)) :=
  (show StableHlo.after hostOps0_2 (W2 m ρ c) (Proc.devRef .tc main_arg5) = W2 m ρ c (Proc.devRef .tc main_arg5) from by
    generalize W2 m ρ c = Vp; unfold hostOps0_2; after_results).trans (W2_arg5 m ρ c)
theorem W3_arg6 : W3 m ρ c (Proc.devRef .tc main_arg6) = (m ((c : Thread nD τ).loc main_arg6)) :=
  (show StableHlo.after hostOps0_2 (W2 m ρ c) (Proc.devRef .tc main_arg6) = W2 m ρ c (Proc.devRef .tc main_arg6) from by
    generalize W2 m ρ c = Vp; unfold hostOps0_2; after_results).trans (W2_arg6 m ρ c)

/-! ## Region 0: the first layer's linear transform -/

theorem W4_v31 : W4 m ρ c (Proc.devRef .tc main_v31) = (Cert.Forms.product (N := 100000) (K := 1) (M := 16) (m ((c : Thread nD τ).loc main_arg0)) (m ((c : Thread nD τ).loc main_arg3))) := by
  refine (W4_arr m ρ c 2).trans ?_
  rw [Cert.KernelIdeal.Linear16.final (V3 m ρ) c]
  show Cert.Forms.product (N := 100000) (K := 1) (M := 16) (W3 m ρ c (Proc.devRef .tc main_arg0)) (W3 m ρ c (Proc.devRef .tc main_arg3)) = _
  rw [W3_arg0, W3_arg3]
theorem W4_v1 : W4 m ρ c (Proc.devRef .tc main_v1) = Cert.ReferenceIdeal.Stages.sources (m ((c : Thread nD τ).loc main_arg1)) :=
  (W4_of_ne m ρ c main_v1 (by decide)).trans (W3_v1 m ρ c)
theorem W4_v3 : W4 m ρ c (Proc.devRef .tc main_v3) = Cert.ReferenceIdeal.Stages.targets (m ((c : Thread nD τ).loc main_arg1)) :=
  (W4_of_ne m ρ c main_v3 (by decide)).trans (W3_v3 m ρ c)
theorem W4_v13 : W4 m ρ c (Proc.devRef .tc main_v13) = (broadcastInDim Cert.ReferenceIdeal.S100000x1 ![0] Cert.ReferenceIdeal.Gen.bcast_S100000_S100000x1_0 (Cert.ReferenceIdeal.Stages.invRoot (m ((c : Thread nD τ).loc main_arg1)) (m ((c : Thread nD τ).loc main_arg2)))) :=
  (W4_of_ne m ρ c main_v13 (by decide)).trans (W3_v13 m ρ c)
theorem W4_v30 : W4 m ρ c (Proc.devRef .tc main_v30) = (Cert.ReferenceIdeal.Stages.weight (m ((c : Thread nD τ).loc main_arg1)) (m ((c : Thread nD τ).loc main_arg2))) :=
  (W4_of_ne m ρ c main_v30 (by decide)).trans (W3_v30 m ρ c)
theorem W4_arg4 : W4 m ρ c (Proc.devRef .tc main_arg4) = (m ((c : Thread nD τ).loc main_arg4)) :=
  (W4_of_ne m ρ c main_arg4 (by decide)).trans (W3_arg4 m ρ c)
theorem W4_arg5 : W4 m ρ c (Proc.devRef .tc main_arg5) = (m ((c : Thread nD τ).loc main_arg5)) :=
  (W4_of_ne m ρ c main_arg5 (by decide)).trans (W3_arg5 m ρ c)
theorem W4_arg6 : W4 m ρ c (Proc.devRef .tc main_arg6) = (m ((c : Thread nD τ).loc main_arg6)) :=
  (W4_of_ne m ρ c main_arg6 (by decide)).trans (W3_arg6 m ρ c)

/-! ## The source nodes' transformed features -/

theorem W5_v38 : W5 m ρ c (Proc.devRef .tc main_v38) = Cert.ReferenceIdeal.Stages.atSources16 (m ((c : Thread nD τ).loc main_arg1)) (Cert.Forms.product (N := 100000) (K := 1) (M := 16) (m ((c : Thread nD τ).loc main_arg0)) (m ((c : Thread nD τ).loc main_arg3))) := by
  show StableHlo.after hostOps1 (W4 m ρ c) (Proc.devRef .tc main_v38) = _
  unfold hostOps1
  after_results
  rw [W4_v31, W4_v1]
  rfl
theorem W5_v1 : W5 m ρ c (Proc.devRef .tc main_v1) = Cert.ReferenceIdeal.Stages.sources (m ((c : Thread nD τ).loc main_arg1)) :=
  (show StableHlo.after hostOps1 (W4 m ρ c) (Proc.devRef .tc main_v1) = W4 m ρ c (Proc.devRef .tc main_v1) from by unfold hostOps1; after_results).trans (W4_v1 m ρ c)
theorem W5_v3 : W5 m ρ c (Proc.devRef .tc main_v3) = Cert.ReferenceIdeal.Stages.targets (m ((c : Thread nD τ).loc main_arg1)) :=
  (show StableHlo.after hostOps1 (W4 m ρ c) (Proc.devRef .tc main_v3) = W4 m ρ c (Proc.devRef .tc main_v3) from by unfold hostOps1; after_results).trans (W4_v3 m ρ c)
theorem W5_v13 : W5 m ρ c (Proc.devRef .tc main_v13) = (broadcastInDim Cert.ReferenceIdeal.S100000x1 ![0] Cert.ReferenceIdeal.Gen.bcast_S100000_S100000x1_0 (Cert.ReferenceIdeal.Stages.invRoot (m ((c : Thread nD τ).loc main_arg1)) (m ((c : Thread nD τ).loc main_arg2)))) :=
  (show StableHlo.after hostOps1 (W4 m ρ c) (Proc.devRef .tc main_v13) = W4 m ρ c (Proc.devRef .tc main_v13) from by unfold hostOps1; after_results).trans (W4_v13 m ρ c)
theorem W5_v30 : W5 m ρ c (Proc.devRef .tc main_v30) = (Cert.ReferenceIdeal.Stages.weight (m ((c : Thread nD τ).loc main_arg1)) (m ((c : Thread nD τ).loc main_arg2))) :=
  (show StableHlo.after hostOps1 (W4 m ρ c) (Proc.devRef .tc main_v30) = W4 m ρ c (Proc.devRef .tc main_v30) from by unfold hostOps1; after_results).trans (W4_v30 m ρ c)
theorem W5_v31 : W5 m ρ c (Proc.devRef .tc main_v31) = (Cert.Forms.product (N := 100000) (K := 1) (M := 16) (m ((c : Thread nD τ).loc main_arg0)) (m ((c : Thread nD τ).loc main_arg3))) :=
  (show StableHlo.after hostOps1 (W4 m ρ c) (Proc.devRef .tc main_v31) = W4 m ρ c (Proc.devRef .tc main_v31) from by unfold hostOps1; after_results).trans (W4_v31 m ρ c)
theorem W5_arg4 : W5 m ρ c (Proc.devRef .tc main_arg4) = (m ((c : Thread nD τ).loc main_arg4)) :=
  (show StableHlo.after hostOps1 (W4 m ρ c) (Proc.devRef .tc main_arg4) = W4 m ρ c (Proc.devRef .tc main_arg4) from by unfold hostOps1; after_results).trans (W4_arg4 m ρ c)
theorem W5_arg5 : W5 m ρ c (Proc.devRef .tc main_arg5) = (m ((c : Thread nD τ).loc main_arg5)) :=
  (show StableHlo.after hostOps1 (W4 m ρ c) (Proc.devRef .tc main_arg5) = W4 m ρ c (Proc.devRef .tc main_arg5) from by unfold hostOps1; after_results).trans (W4_arg5 m ρ c)
theorem W5_arg6 : W5 m ρ c (Proc.devRef .tc main_arg6) = (m ((c : Thread nD τ).loc main_arg6)) :=
  (show StableHlo.after hostOps1 (W4 m ρ c) (Proc.devRef .tc main_arg6) = W4 m ρ c (Proc.devRef .tc main_arg6) from by unfold hostOps1; after_results).trans (W4_arg6 m ρ c)

/-! ## Region 1: the first layer's per-edge products -/

theorem W6_v39 : W6 m ρ c (Proc.devRef .tc main_v39) = (Cert.Forms.scaled (E := 4800000) (W := 16) (Cert.ReferenceIdeal.Stages.weight (m ((c : Thread nD τ).loc main_arg1)) (m ((c : Thread nD τ).loc main_arg2))) (Cert.ReferenceIdeal.Stages.atSources16 (m ((c : Thread nD τ).loc main_arg1)) (Cert.Forms.product (N := 100000) (K := 1) (M := 16) (m ((c : Thread nD τ).loc main_arg0)) (m ((c : Thread nD τ).loc main_arg3))))) := by
  refine (W6_arr m ρ c 2).trans ?_
  rw [Cert.KernelIdeal.Edge16.final (V5 m ρ) c]
  show Cert.Forms.scaled (E := 4800000) (W := 16) (W5 m ρ c (Proc.devRef .tc main_v30)) (W5 m ρ c (Proc.devRef .tc main_v38)) = _
  rw [W5_v30, W5_v38]
theorem W6_v1 : W6 m ρ c (Proc.devRef .tc main_v1) = Cert.ReferenceIdeal.Stages.sources (m ((c : Thread nD τ).loc main_arg1)) :=
  (W6_of_ne m ρ c main_v1 (by decide)).trans (W5_v1 m ρ c)
theorem W6_v3 : W6 m ρ c (Proc.devRef .tc main_v3) = Cert.ReferenceIdeal.Stages.targets (m ((c : Thread nD τ).loc main_arg1)) :=
  (W6_of_ne m ρ c main_v3 (by decide)).trans (W5_v3 m ρ c)
theorem W6_v13 : W6 m ρ c (Proc.devRef .tc main_v13) = (broadcastInDim Cert.ReferenceIdeal.S100000x1 ![0] Cert.ReferenceIdeal.Gen.bcast_S100000_S100000x1_0 (Cert.ReferenceIdeal.Stages.invRoot (m ((c : Thread nD τ).loc main_arg1)) (m ((c : Thread nD τ).loc main_arg2)))) :=
  (W6_of_ne m ρ c main_v13 (by decide)).trans (W5_v13 m ρ c)
theorem W6_v30 : W6 m ρ c (Proc.devRef .tc main_v30) = (Cert.ReferenceIdeal.Stages.weight (m ((c : Thread nD τ).loc main_arg1)) (m ((c : Thread nD τ).loc main_arg2))) :=
  ((W6_arr m ρ c 0).trans (((dat1 (V5 m ρ) c).arrAt_in 0 rfl _).trans (A_eq1 (V5 m ρ) c 0))).trans (W5_v30 m ρ c)
theorem W6_v31 : W6 m ρ c (Proc.devRef .tc main_v31) = (Cert.Forms.product (N := 100000) (K := 1) (M := 16) (m ((c : Thread nD τ).loc main_arg0)) (m ((c : Thread nD τ).loc main_arg3))) :=
  (W6_of_ne m ρ c main_v31 (by decide)).trans (W5_v31 m ρ c)
theorem W6_arg4 : W6 m ρ c (Proc.devRef .tc main_arg4) = (m ((c : Thread nD τ).loc main_arg4)) :=
  (W6_of_ne m ρ c main_arg4 (by decide)).trans (W5_arg4 m ρ c)
theorem W6_arg5 : W6 m ρ c (Proc.devRef .tc main_arg5) = (m ((c : Thread nD τ).loc main_arg5)) :=
  (W6_of_ne m ρ c main_arg5 (by decide)).trans (W5_arg5 m ρ c)
theorem W6_arg6 : W6 m ρ c (Proc.devRef .tc main_arg6) = (m ((c : Thread nD τ).loc main_arg6)) :=
  (W6_of_ne m ρ c main_arg6 (by decide)).trans (W5_arg6 m ρ c)

/-! ## The first layer's sums over incoming edges, and its bias as one row -/

theorem W7_v42 : W7 m ρ c (Proc.devRef .tc main_v42) = (Cert.ReferenceIdeal.Stages.aggregate16 (m ((c : Thread nD τ).loc main_arg1)) (Cert.Forms.scaled (E := 4800000) (W := 16) (Cert.ReferenceIdeal.Stages.weight (m ((c : Thread nD τ).loc main_arg1)) (m ((c : Thread nD τ).loc main_arg2))) (Cert.ReferenceIdeal.Stages.atSources16 (m ((c : Thread nD τ).loc main_arg1)) (Cert.Forms.product (N := 100000) (K := 1) (M := 16) (m ((c : Thread nD τ).loc main_arg0)) (m ((c : Thread nD τ).loc main_arg3)))))) := by
  show StableHlo.after hostOps2 (W6 m ρ c) (Proc.devRef .tc main_v42) = _
  unfold hostOps2
  after_results
  rw [W6_v3, W6_v39]
  rfl
theorem W7_v43 : W7 m ρ c (Proc.devRef .tc main_v43) = (shapeCast S1x16 (m ((c : Thread nD τ).loc main_arg4)) shapeCasts_S16_S1x16) := by
  show StableHlo.after hostOps2 (W6 m ρ c) (Proc.devRef .tc main_v43) = _
  unfold hostOps2
  after_results
  rw [W6_arg4]
  rfl
theorem W7_v1 : W7 m ρ c (Proc.devRef .tc main_v1) = Cert.ReferenceIdeal.Stages.sources (m ((c : Thread nD τ).loc main_arg1)) :=
  (show StableHlo.after hostOps2 (W6 m ρ c) (Proc.devRef .tc main_v1) = W6 m ρ c (Proc.devRef .tc main_v1) from by unfold hostOps2; after_results).trans (W6_v1 m ρ c)
theorem W7_v3 : W7 m ρ c (Proc.devRef .tc main_v3) = Cert.ReferenceIdeal.Stages.targets (m ((c : Thread nD τ).loc main_arg1)) :=
  (show StableHlo.after hostOps2 (W6 m ρ c) (Proc.devRef .tc main_v3) = W6 m ρ c (Proc.devRef .tc main_v3) from by unfold hostOps2; after_results).trans (W6_v3 m ρ c)
theorem W7_v13 : W7 m ρ c (Proc.devRef .tc main_v13) = (broadcastInDim Cert.ReferenceIdeal.S100000x1 ![0] Cert.ReferenceIdeal.Gen.bcast_S100000_S100000x1_0 (Cert.ReferenceIdeal.Stages.invRoot (m ((c : Thread nD τ).loc main_arg1)) (m ((c : Thread nD τ).loc main_arg2)))) :=
  (show StableHlo.after hostOps2 (W6 m ρ c) (Proc.devRef .tc main_v13) = W6 m ρ c (Proc.devRef .tc main_v13) from by unfold hostOps2; after_results).trans (W6_v13 m ρ c)
theorem W7_v30 : W7 m ρ c (Proc.devRef .tc main_v30) = (Cert.ReferenceIdeal.Stages.weight (m ((c : Thread nD τ).loc main_arg1)) (m ((c : Thread nD τ).loc main_arg2))) :=
  (show StableHlo.after hostOps2 (W6 m ρ c) (Proc.devRef .tc main_v30) = W6 m ρ c (Proc.devRef .tc main_v30) from by unfold hostOps2; after_results).trans (W6_v30 m ρ c)
theorem W7_v31 : W7 m ρ c (Proc.devRef .tc main_v31) = (Cert.Forms.product (N := 100000) (K := 1) (M := 16) (m ((c : Thread nD τ).loc main_arg0)) (m ((c : Thread nD τ).loc main_arg3))) :=
  (show StableHlo.after hostOps2 (W6 m ρ c) (Proc.devRef .tc main_v31) = W6 m ρ c (Proc.devRef .tc main_v31) from by unfold hostOps2; after_results).trans (W6_v31 m ρ c)
theorem W7_arg5 : W7 m ρ c (Proc.devRef .tc main_arg5) = (m ((c : Thread nD τ).loc main_arg5)) :=
  (show StableHlo.after hostOps2 (W6 m ρ c) (Proc.devRef .tc main_arg5) = W6 m ρ c (Proc.devRef .tc main_arg5) from by unfold hostOps2; after_results).trans (W6_arg5 m ρ c)
theorem W7_arg6 : W7 m ρ c (Proc.devRef .tc main_arg6) = (m ((c : Thread nD τ).loc main_arg6)) :=
  (show StableHlo.after hostOps2 (W6 m ρ c) (Proc.devRef .tc main_arg6) = W6 m ρ c (Proc.devRef .tc main_arg6) from by unfold hostOps2; after_results).trans (W6_arg6 m ρ c)

/-! ## Region 2: the first layer's combine step and positive part -/

theorem W8_v44 : W8 m ρ c (Proc.devRef .tc main_v44) = (Cert.Forms.positivePart (Cert.Forms.combined (N := 100000) (W := 16) (Cert.ReferenceIdeal.Stages.aggregate16 (m ((c : Thread nD τ).loc main_arg1)) (Cert.Forms.scaled (E := 4800000) (W := 16) (Cert.ReferenceIdeal.Stages.weight (m ((c : Thread nD τ).loc main_arg1)) (m ((c : Thread nD τ).loc main_arg2))) (Cert.ReferenceIdeal.Stages.atSources16 (m ((c : Thread nD τ).loc main_arg1)) (Cert.Forms.product (N := 100000) (K := 1) (M := 16) (m ((c : Thread nD τ).loc main_arg0)) (m ((c : Thread nD τ).loc main_arg3)))))) (Cert.Forms.product (N := 100000) (K := 1) (M := 16) (m ((c : Thread nD τ).loc main_arg0)) (m ((c : Thread nD τ).loc main_arg3))) (broadcastInDim Cert.ReferenceIdeal.S100000x1 ![0] Cert.ReferenceIdeal.Gen.bcast_S100000_S100000x1_0 (Cert.ReferenceIdeal.Stages.invRoot (m ((c : Thread nD τ).loc main_arg1)) (m ((c : Thread nD τ).loc main_arg2)))) (shapeCast S1x16 (m ((c : Thread nD τ).loc main_arg4)) shapeCasts_S16_S1x16))) := by
  refine (W8_arr m ρ c 4).trans ?_
  rw [Cert.KernelIdeal.Combine16.final (V7 m ρ) c]
  show Cert.Forms.positivePart (Cert.Forms.combined (N := 100000) (W := 16) (W7 m ρ c (Proc.devRef .tc main_v42)) (W7 m ρ c (Proc.devRef .tc main_v31))
    (W7 m ρ c (Proc.devRef .tc main_v13)) (W7 m ρ c (Proc.devRef .tc main_v43))) = _
  rw [W7_v42, W7_v31, W7_v13, W7_v43]
theorem W8_v1 : W8 m ρ c (Proc.devRef .tc main_v1) = Cert.ReferenceIdeal.Stages.sources (m ((c : Thread nD τ).loc main_arg1)) :=
  (W8_of_ne m ρ c main_v1 (by decide)).trans (W7_v1 m ρ c)
theorem W8_v3 : W8 m ρ c (Proc.devRef .tc main_v3) = Cert.ReferenceIdeal.Stages.targets (m ((c : Thread nD τ).loc main_arg1)) :=
  (W8_of_ne m ρ c main_v3 (by decide)).trans (W7_v3 m ρ c)
theorem W8_v13 : W8 m ρ c (Proc.devRef .tc main_v13) = (broadcastInDim Cert.ReferenceIdeal.S100000x1 ![0] Cert.ReferenceIdeal.Gen.bcast_S100000_S100000x1_0 (Cert.ReferenceIdeal.Stages.invRoot (m ((c : Thread nD τ).loc main_arg1)) (m ((c : Thread nD τ).loc main_arg2)))) :=
  ((W8_arr m ρ c 2).trans (((dat2 (V7 m ρ) c).arrAt_in 2 rfl _).trans (A_eq2 (V7 m ρ) c 2))).trans (W7_v13 m ρ c)
theorem W8_v30 : W8 m ρ c (Proc.devRef .tc main_v30) = (Cert.ReferenceIdeal.Stages.weight (m ((c : Thread nD τ).loc main_arg1)) (m ((c : Thread nD τ).loc main_arg2))) :=
  (W8_of_ne m ρ c main_v30 (by decide)).trans (W7_v30 m ρ c)
theorem W8_arg5 : W8 m ρ c (Proc.devRef .tc main_arg5) = (m ((c : Thread nD τ).loc main_arg5)) :=
  (W8_of_ne m ρ c main_arg5 (by decide)).trans (W7_arg5 m ρ c)
theorem W8_arg6 : W8 m ρ c (Proc.devRef .tc main_arg6) = (m ((c : Thread nD τ).loc main_arg6)) :=
  (W8_of_ne m ρ c main_arg6 (by decide)).trans (W7_arg6 m ρ c)

/-! ## Region 3: the second layer's linear transform -/

theorem W9_v45 : W9 m ρ c (Proc.devRef .tc main_v45) = (Cert.Forms.product (N := 100000) (K := 16) (M := 10) (Cert.Forms.positivePart (Cert.Forms.combined (N := 100000) (W := 16) (Cert.ReferenceIdeal.Stages.aggregate16 (m ((c : Thread nD τ).loc main_arg1)) (Cert.Forms.scaled (E := 4800000) (W := 16) (Cert.ReferenceIdeal.Stages.weight (m ((c : Thread nD τ).loc main_arg1)) (m ((c : Thread nD τ).loc main_arg2))) (Cert.ReferenceIdeal.Stages.atSources16 (m ((c : Thread nD τ).loc main_arg1)) (Cert.Forms.product (N := 100000) (K := 1) (M := 16) (m ((c : Thread nD τ).loc main_arg0)) (m ((c : Thread nD τ).loc main_arg3)))))) (Cert.Forms.product (N := 100000) (K := 1) (M := 16) (m ((c : Thread nD τ).loc main_arg0)) (m ((c : Thread nD τ).loc main_arg3))) (broadcastInDim Cert.ReferenceIdeal.S100000x1 ![0] Cert.ReferenceIdeal.Gen.bcast_S100000_S100000x1_0 (Cert.ReferenceIdeal.Stages.invRoot (m ((c : Thread nD τ).loc main_arg1)) (m ((c : Thread nD τ).loc main_arg2)))) (shapeCast S1x16 (m ((c : Thread nD τ).loc main_arg4)) shapeCasts_S16_S1x16))) (m ((c : Thread nD τ).loc main_arg5))) := by
  refine (W9_arr m ρ c 2).trans ?_
  rw [Cert.KernelIdeal.Linear10.final (V8 m ρ) c]
  show Cert.Forms.product (N := 100000) (K := 16) (M := 10) (W8 m ρ c (Proc.devRef .tc main_v44)) (W8 m ρ c (Proc.devRef .tc main_arg5)) = _
  rw [W8_v44, W8_arg5]
theorem W9_v1 : W9 m ρ c (Proc.devRef .tc main_v1) = Cert.ReferenceIdeal.Stages.sources (m ((c : Thread nD τ).loc main_arg1)) :=
  (W9_of_ne m ρ c main_v1 (by decide)).trans (W8_v1 m ρ c)
theorem W9_v3 : W9 m ρ c (Proc.devRef .tc main_v3) = Cert.ReferenceIdeal.Stages.targets (m ((c : Thread nD τ).loc main_arg1)) :=
  (W9_of_ne m ρ c main_v3 (by decide)).trans (W8_v3 m ρ c)
theorem W9_v13 : W9 m ρ c (Proc.devRef .tc main_v13) = (broadcastInDim Cert.ReferenceIdeal.S100000x1 ![0] Cert.ReferenceIdeal.Gen.bcast_S100000_S100000x1_0 (Cert.ReferenceIdeal.Stages.invRoot (m ((c : Thread nD τ).loc main_arg1)) (m ((c : Thread nD τ).loc main_arg2)))) :=
  (W9_of_ne m ρ c main_v13 (by decide)).trans (W8_v13 m ρ c)
theorem W9_v30 : W9 m ρ c (Proc.devRef .tc main_v30) = (Cert.ReferenceIdeal.Stages.weight (m ((c : Thread nD τ).loc main_arg1)) (m ((c : Thread nD τ).loc main_arg2))) :=
  (W9_of_ne m ρ c main_v30 (by decide)).trans (W8_v30 m ρ c)
theorem W9_arg6 : W9 m ρ c (Proc.devRef .tc main_arg6) = (m ((c : Thread nD τ).loc main_arg6)) :=
  (W9_of_ne m ρ c main_arg6 (by decide)).trans (W8_arg6 m ρ c)

/-! ## The source nodes' hidden features, transformed -/

theorem W10_v52 : W10 m ρ c (Proc.devRef .tc main_v52) = Cert.ReferenceIdeal.Stages.atSources10 (m ((c : Thread nD τ).loc main_arg1)) (Cert.Forms.product (N := 100000) (K := 16) (M := 10) (Cert.Forms.positivePart (Cert.Forms.combined (N := 100000) (W := 16) (Cert.ReferenceIdeal.Stages.aggregate16 (m ((c : Thread nD τ).loc main_arg1)) (Cert.Forms.scaled (E := 4800000) (W := 16) (Cert.ReferenceIdeal.Stages.weight (m ((c : Thread nD τ).loc main_arg1)) (m ((c : Thread nD τ).loc main_arg2))) (Cert.ReferenceIdeal.Stages.atSources16 (m ((c : Thread nD τ).loc main_arg1)) (Cert.Forms.product (N := 100000) (K := 1) (M := 16) (m ((c : Thread nD τ).loc main_arg0)) (m ((c : Thread nD τ).loc main_arg3)))))) (Cert.Forms.product (N := 100000) (K := 1) (M := 16) (m ((c : Thread nD τ).loc main_arg0)) (m ((c : Thread nD τ).loc main_arg3))) (broadcastInDim Cert.ReferenceIdeal.S100000x1 ![0] Cert.ReferenceIdeal.Gen.bcast_S100000_S100000x1_0 (Cert.ReferenceIdeal.Stages.invRoot (m ((c : Thread nD τ).loc main_arg1)) (m ((c : Thread nD τ).loc main_arg2)))) (shapeCast S1x16 (m ((c : Thread nD τ).loc main_arg4)) shapeCasts_S16_S1x16))) (m ((c : Thread nD τ).loc main_arg5))) := by
  show StableHlo.after hostOps4 (W9 m ρ c) (Proc.devRef .tc main_v52) = _
  unfold hostOps4
  after_results
  rw [W9_v45, W9_v1]
  rfl
theorem W10_v3 : W10 m ρ c (Proc.devRef .tc main_v3) = Cert.ReferenceIdeal.Stages.targets (m ((c : Thread nD τ).loc main_arg1)) :=
  (show StableHlo.after hostOps4 (W9 m ρ c) (Proc.devRef .tc main_v3) = W9 m ρ c (Proc.devRef .tc main_v3) from by unfold hostOps4; after_results).trans (W9_v3 m ρ c)
theorem W10_v13 : W10 m ρ c (Proc.devRef .tc main_v13) = (broadcastInDim Cert.ReferenceIdeal.S100000x1 ![0] Cert.ReferenceIdeal.Gen.bcast_S100000_S100000x1_0 (Cert.ReferenceIdeal.Stages.invRoot (m ((c : Thread nD τ).loc main_arg1)) (m ((c : Thread nD τ).loc main_arg2)))) :=
  (show StableHlo.after hostOps4 (W9 m ρ c) (Proc.devRef .tc main_v13) = W9 m ρ c (Proc.devRef .tc main_v13) from by unfold hostOps4; after_results).trans (W9_v13 m ρ c)
theorem W10_v30 : W10 m ρ c (Proc.devRef .tc main_v30) = (Cert.ReferenceIdeal.Stages.weight (m ((c : Thread nD τ).loc main_arg1)) (m ((c : Thread nD τ).loc main_arg2))) :=
  (show StableHlo.after hostOps4 (W9 m ρ c) (Proc.devRef .tc main_v30) = W9 m ρ c (Proc.devRef .tc main_v30) from by unfold hostOps4; after_results).trans (W9_v30 m ρ c)
theorem W10_v45 : W10 m ρ c (Proc.devRef .tc main_v45) = (Cert.Forms.product (N := 100000) (K := 16) (M := 10) (Cert.Forms.positivePart (Cert.Forms.combined (N := 100000) (W := 16) (Cert.ReferenceIdeal.Stages.aggregate16 (m ((c : Thread nD τ).loc main_arg1)) (Cert.Forms.scaled (E := 4800000) (W := 16) (Cert.ReferenceIdeal.Stages.weight (m ((c : Thread nD τ).loc main_arg1)) (m ((c : Thread nD τ).loc main_arg2))) (Cert.ReferenceIdeal.Stages.atSources16 (m ((c : Thread nD τ).loc main_arg1)) (Cert.Forms.product (N := 100000) (K := 1) (M := 16) (m ((c : Thread nD τ).loc main_arg0)) (m ((c : Thread nD τ).loc main_arg3)))))) (Cert.Forms.product (N := 100000) (K := 1) (M := 16) (m ((c : Thread nD τ).loc main_arg0)) (m ((c : Thread nD τ).loc main_arg3))) (broadcastInDim Cert.ReferenceIdeal.S100000x1 ![0] Cert.ReferenceIdeal.Gen.bcast_S100000_S100000x1_0 (Cert.ReferenceIdeal.Stages.invRoot (m ((c : Thread nD τ).loc main_arg1)) (m ((c : Thread nD τ).loc main_arg2)))) (shapeCast S1x16 (m ((c : Thread nD τ).loc main_arg4)) shapeCasts_S16_S1x16))) (m ((c : Thread nD τ).loc main_arg5))) :=
  (show StableHlo.after hostOps4 (W9 m ρ c) (Proc.devRef .tc main_v45) = W9 m ρ c (Proc.devRef .tc main_v45) from by unfold hostOps4; after_results).trans (W9_v45 m ρ c)
theorem W10_arg6 : W10 m ρ c (Proc.devRef .tc main_arg6) = (m ((c : Thread nD τ).loc main_arg6)) :=
  (show StableHlo.after hostOps4 (W9 m ρ c) (Proc.devRef .tc main_arg6) = W9 m ρ c (Proc.devRef .tc main_arg6) from by unfold hostOps4; after_results).trans (W9_arg6 m ρ c)

/-! ## Region 4: the second layer's per-edge products -/

theorem W11_v53 : W11 m ρ c (Proc.devRef .tc main_v53) = (Cert.Forms.scaled (E := 4800000) (W := 10) (Cert.ReferenceIdeal.Stages.weight (m ((c : Thread nD τ).loc main_arg1)) (m ((c : Thread nD τ).loc main_arg2))) (Cert.ReferenceIdeal.Stages.atSources10 (m ((c : Thread nD τ).loc main_arg1)) (Cert.Forms.product (N := 100000) (K := 16) (M := 10) (Cert.Forms.positivePart (Cert.Forms.combined (N := 100000) (W := 16) (Cert.ReferenceIdeal.Stages.aggregate16 (m ((c : Thread nD τ).loc main_arg1)) (Cert.Forms.scaled (E := 4800000) (W := 16) (Cert.ReferenceIdeal.Stages.weight (m ((c : Thread nD τ).loc main_arg1)) (m ((c : Thread nD τ).loc main_arg2))) (Cert.ReferenceIdeal.Stages.atSources16 (m ((c : Thread nD τ).loc main_arg1)) (Cert.Forms.product (N := 100000) (K := 1) (M := 16) (m ((c : Thread nD τ).loc main_arg0)) (m ((c : Thread nD τ).loc main_arg3)))))) (Cert.Forms.product (N := 100000) (K := 1) (M := 16) (m ((c : Thread nD τ).loc main_arg0)) (m ((c : Thread nD τ).loc main_arg3))) (broadcastInDim Cert.ReferenceIdeal.S100000x1 ![0] Cert.ReferenceIdeal.Gen.bcast_S100000_S100000x1_0 (Cert.ReferenceIdeal.Stages.invRoot (m ((c : Thread nD τ).loc main_arg1)) (m ((c : Thread nD τ).loc main_arg2)))) (shapeCast S1x16 (m ((c : Thread nD τ).loc main_arg4)) shapeCasts_S16_S1x16))) (m ((c : Thread nD τ).loc main_arg5))))) := by
  refine (W11_arr m ρ c 2).trans ?_
  rw [Cert.KernelIdeal.Edge10.final (V10 m ρ) c]
  show Cert.Forms.scaled (E := 4800000) (W := 10) (W10 m ρ c (Proc.devRef .tc main_v30)) (W10 m ρ c (Proc.devRef .tc main_v52)) = _
  rw [W10_v30, W10_v52]
theorem W11_v3 : W11 m ρ c (Proc.devRef .tc main_v3) = Cert.ReferenceIdeal.Stages.targets (m ((c : Thread nD τ).loc main_arg1)) :=
  (W11_of_ne m ρ c main_v3 (by decide)).trans (W10_v3 m ρ c)
theorem W11_v13 : W11 m ρ c (Proc.devRef .tc main_v13) = (broadcastInDim Cert.ReferenceIdeal.S100000x1 ![0] Cert.ReferenceIdeal.Gen.bcast_S100000_S100000x1_0 (Cert.ReferenceIdeal.Stages.invRoot (m ((c : Thread nD τ).loc main_arg1)) (m ((c : Thread nD τ).loc main_arg2)))) :=
  (W11_of_ne m ρ c main_v13 (by decide)).trans (W10_v13 m ρ c)
theorem W11_v45 : W11 m ρ c (Proc.devRef .tc main_v45) = (Cert.Forms.product (N := 100000) (K := 16) (M := 10) (Cert.Forms.positivePart (Cert.Forms.combined (N := 100000) (W := 16) (Cert.ReferenceIdeal.Stages.aggregate16 (m ((c : Thread nD τ).loc main_arg1)) (Cert.Forms.scaled (E := 4800000) (W := 16) (Cert.ReferenceIdeal.Stages.weight (m ((c : Thread nD τ).loc main_arg1)) (m ((c : Thread nD τ).loc main_arg2))) (Cert.ReferenceIdeal.Stages.atSources16 (m ((c : Thread nD τ).loc main_arg1)) (Cert.Forms.product (N := 100000) (K := 1) (M := 16) (m ((c : Thread nD τ).loc main_arg0)) (m ((c : Thread nD τ).loc main_arg3)))))) (Cert.Forms.product (N := 100000) (K := 1) (M := 16) (m ((c : Thread nD τ).loc main_arg0)) (m ((c : Thread nD τ).loc main_arg3))) (broadcastInDim Cert.ReferenceIdeal.S100000x1 ![0] Cert.ReferenceIdeal.Gen.bcast_S100000_S100000x1_0 (Cert.ReferenceIdeal.Stages.invRoot (m ((c : Thread nD τ).loc main_arg1)) (m ((c : Thread nD τ).loc main_arg2)))) (shapeCast S1x16 (m ((c : Thread nD τ).loc main_arg4)) shapeCasts_S16_S1x16))) (m ((c : Thread nD τ).loc main_arg5))) :=
  (W11_of_ne m ρ c main_v45 (by decide)).trans (W10_v45 m ρ c)
theorem W11_arg6 : W11 m ρ c (Proc.devRef .tc main_arg6) = (m ((c : Thread nD τ).loc main_arg6)) :=
  (W11_of_ne m ρ c main_arg6 (by decide)).trans (W10_arg6 m ρ c)

/-! ## The second layer's sums over incoming edges, and its bias as one row -/

theorem W12_v56 : W12 m ρ c (Proc.devRef .tc main_v56) = (Cert.ReferenceIdeal.Stages.aggregate10 (m ((c : Thread nD τ).loc main_arg1)) (Cert.Forms.scaled (E := 4800000) (W := 10) (Cert.ReferenceIdeal.Stages.weight (m ((c : Thread nD τ).loc main_arg1)) (m ((c : Thread nD τ).loc main_arg2))) (Cert.ReferenceIdeal.Stages.atSources10 (m ((c : Thread nD τ).loc main_arg1)) (Cert.Forms.product (N := 100000) (K := 16) (M := 10) (Cert.Forms.positivePart (Cert.Forms.combined (N := 100000) (W := 16) (Cert.ReferenceIdeal.Stages.aggregate16 (m ((c : Thread nD τ).loc main_arg1)) (Cert.Forms.scaled (E := 4800000) (W := 16) (Cert.ReferenceIdeal.Stages.weight (m ((c : Thread nD τ).loc main_arg1)) (m ((c : Thread nD τ).loc main_arg2))) (Cert.ReferenceIdeal.Stages.atSources16 (m ((c : Thread nD τ).loc main_arg1)) (Cert.Forms.product (N := 100000) (K := 1) (M := 16) (m ((c : Thread nD τ).loc main_arg0)) (m ((c : Thread nD τ).loc main_arg3)))))) (Cert.Forms.product (N := 100000) (K := 1) (M := 16) (m ((c : Thread nD τ).loc main_arg0)) (m ((c : Thread nD τ).loc main_arg3))) (broadcastInDim Cert.ReferenceIdeal.S100000x1 ![0] Cert.ReferenceIdeal.Gen.bcast_S100000_S100000x1_0 (Cert.ReferenceIdeal.Stages.invRoot (m ((c : Thread nD τ).loc main_arg1)) (m ((c : Thread nD τ).loc main_arg2)))) (shapeCast S1x16 (m ((c : Thread nD τ).loc main_arg4)) shapeCasts_S16_S1x16))) (m ((c : Thread nD τ).loc main_arg5)))))) := by
  show StableHlo.after hostOps5 (W11 m ρ c) (Proc.devRef .tc main_v56) = _
  unfold hostOps5
  after_results
  rw [W11_v3, W11_v53]
  rfl
theorem W12_v57 : W12 m ρ c (Proc.devRef .tc main_v57) = (shapeCast S1x10 (m ((c : Thread nD τ).loc main_arg6)) shapeCasts_S10_S1x10) := by
  show StableHlo.after hostOps5 (W11 m ρ c) (Proc.devRef .tc main_v57) = _
  unfold hostOps5
  after_results
  rw [W11_arg6]
  rfl
theorem W12_v13 : W12 m ρ c (Proc.devRef .tc main_v13) = (broadcastInDim Cert.ReferenceIdeal.S100000x1 ![0] Cert.ReferenceIdeal.Gen.bcast_S100000_S100000x1_0 (Cert.ReferenceIdeal.Stages.invRoot (m ((c : Thread nD τ).loc main_arg1)) (m ((c : Thread nD τ).loc main_arg2)))) :=
  (show StableHlo.after hostOps5 (W11 m ρ c) (Proc.devRef .tc main_v13) = W11 m ρ c (Proc.devRef .tc main_v13) from by unfold hostOps5; after_results).trans (W11_v13 m ρ c)
theorem W12_v45 : W12 m ρ c (Proc.devRef .tc main_v45) = (Cert.Forms.product (N := 100000) (K := 16) (M := 10) (Cert.Forms.positivePart (Cert.Forms.combined (N := 100000) (W := 16) (Cert.ReferenceIdeal.Stages.aggregate16 (m ((c : Thread nD τ).loc main_arg1)) (Cert.Forms.scaled (E := 4800000) (W := 16) (Cert.ReferenceIdeal.Stages.weight (m ((c : Thread nD τ).loc main_arg1)) (m ((c : Thread nD τ).loc main_arg2))) (Cert.ReferenceIdeal.Stages.atSources16 (m ((c : Thread nD τ).loc main_arg1)) (Cert.Forms.product (N := 100000) (K := 1) (M := 16) (m ((c : Thread nD τ).loc main_arg0)) (m ((c : Thread nD τ).loc main_arg3)))))) (Cert.Forms.product (N := 100000) (K := 1) (M := 16) (m ((c : Thread nD τ).loc main_arg0)) (m ((c : Thread nD τ).loc main_arg3))) (broadcastInDim Cert.ReferenceIdeal.S100000x1 ![0] Cert.ReferenceIdeal.Gen.bcast_S100000_S100000x1_0 (Cert.ReferenceIdeal.Stages.invRoot (m ((c : Thread nD τ).loc main_arg1)) (m ((c : Thread nD τ).loc main_arg2)))) (shapeCast S1x16 (m ((c : Thread nD τ).loc main_arg4)) shapeCasts_S16_S1x16))) (m ((c : Thread nD τ).loc main_arg5))) :=
  (show StableHlo.after hostOps5 (W11 m ρ c) (Proc.devRef .tc main_v45) = W11 m ρ c (Proc.devRef .tc main_v45) from by unfold hostOps5; after_results).trans (W11_v45 m ρ c)

/-! ## Region 5: the second layer's combine step — the result -/

theorem W13_v58 : W13 m ρ c (Proc.devRef .tc main_v58) = (Cert.Forms.combined (N := 100000) (W := 10) (Cert.ReferenceIdeal.Stages.aggregate10 (m ((c : Thread nD τ).loc main_arg1)) (Cert.Forms.scaled (E := 4800000) (W := 10) (Cert.ReferenceIdeal.Stages.weight (m ((c : Thread nD τ).loc main_arg1)) (m ((c : Thread nD τ).loc main_arg2))) (Cert.ReferenceIdeal.Stages.atSources10 (m ((c : Thread nD τ).loc main_arg1)) (Cert.Forms.product (N := 100000) (K := 16) (M := 10) (Cert.Forms.positivePart (Cert.Forms.combined (N := 100000) (W := 16) (Cert.ReferenceIdeal.Stages.aggregate16 (m ((c : Thread nD τ).loc main_arg1)) (Cert.Forms.scaled (E := 4800000) (W := 16) (Cert.ReferenceIdeal.Stages.weight (m ((c : Thread nD τ).loc main_arg1)) (m ((c : Thread nD τ).loc main_arg2))) (Cert.ReferenceIdeal.Stages.atSources16 (m ((c : Thread nD τ).loc main_arg1)) (Cert.Forms.product (N := 100000) (K := 1) (M := 16) (m ((c : Thread nD τ).loc main_arg0)) (m ((c : Thread nD τ).loc main_arg3)))))) (Cert.Forms.product (N := 100000) (K := 1) (M := 16) (m ((c : Thread nD τ).loc main_arg0)) (m ((c : Thread nD τ).loc main_arg3))) (broadcastInDim Cert.ReferenceIdeal.S100000x1 ![0] Cert.ReferenceIdeal.Gen.bcast_S100000_S100000x1_0 (Cert.ReferenceIdeal.Stages.invRoot (m ((c : Thread nD τ).loc main_arg1)) (m ((c : Thread nD τ).loc main_arg2)))) (shapeCast S1x16 (m ((c : Thread nD τ).loc main_arg4)) shapeCasts_S16_S1x16))) (m ((c : Thread nD τ).loc main_arg5)))))) (Cert.Forms.product (N := 100000) (K := 16) (M := 10) (Cert.Forms.positivePart (Cert.Forms.combined (N := 100000) (W := 16) (Cert.ReferenceIdeal.Stages.aggregate16 (m ((c : Thread nD τ).loc main_arg1)) (Cert.Forms.scaled (E := 4800000) (W := 16) (Cert.ReferenceIdeal.Stages.weight (m ((c : Thread nD τ).loc main_arg1)) (m ((c : Thread nD τ).loc main_arg2))) (Cert.ReferenceIdeal.Stages.atSources16 (m ((c : Thread nD τ).loc main_arg1)) (Cert.Forms.product (N := 100000) (K := 1) (M := 16) (m ((c : Thread nD τ).loc main_arg0)) (m ((c : Thread nD τ).loc main_arg3)))))) (Cert.Forms.product (N := 100000) (K := 1) (M := 16) (m ((c : Thread nD τ).loc main_arg0)) (m ((c : Thread nD τ).loc main_arg3))) (broadcastInDim Cert.ReferenceIdeal.S100000x1 ![0] Cert.ReferenceIdeal.Gen.bcast_S100000_S100000x1_0 (Cert.ReferenceIdeal.Stages.invRoot (m ((c : Thread nD τ).loc main_arg1)) (m ((c : Thread nD τ).loc main_arg2)))) (shapeCast S1x16 (m ((c : Thread nD τ).loc main_arg4)) shapeCasts_S16_S1x16))) (m ((c : Thread nD τ).loc main_arg5))) (broadcastInDim Cert.ReferenceIdeal.S100000x1 ![0] Cert.ReferenceIdeal.Gen.bcast_S100000_S100000x1_0 (Cert.ReferenceIdeal.Stages.invRoot (m ((c : Thread nD τ).loc main_arg1)) (m ((c : Thread nD τ).loc main_arg2)))) (shapeCast S1x10 (m ((c : Thread nD τ).loc main_arg6)) shapeCasts_S10_S1x10)) := by
  refine (W13_arr m ρ c 4).trans ?_
  rw [Cert.KernelIdeal.Combine10.final (V12 m ρ) c]
  show Cert.Forms.combined (N := 100000) (W := 10) (W12 m ρ c (Proc.devRef .tc main_v56)) (W12 m ρ c (Proc.devRef .tc main_v45))
    (W12 m ρ c (Proc.devRef .tc main_v13)) (W12 m ρ c (Proc.devRef .tc main_v57)) = _
  rw [W12_v56, W12_v45, W12_v13, W12_v57]

/-- The result array at the last boundary is the kernel's network of the argument arrays. -/
theorem result : W13 m ρ c (Proc.devRef .tc main_v58) = Cert.Bridge.kernelNetwork (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  W13_v58 m ρ c

end Cert.KernelIdeal.Boundaries

end
-- ==== Proof.lean ====
/-
  The kernel is a two-layer graph convolution (a linear transform, a normalised sum over incoming edges, a self loop,
  a bias; the positive part between the layers) whose linear transforms, per-edge products and combine steps run as
  six pipelined regions, with the gathers and scatter-adds between them on the host; the reference computes the same
  network with host operations only.

  The three frames: the two kernel programs' frames are the generated frame certificates; the reference's is its
  generated run with the result dropped.  The idealization rewrote nothing, so `preserves` is `True`.

  The two results are equal as extended reals.  The kernel's result array is read off the segment boundaries of its run
  (Proof/KernelRun.lean, Proof/Boundaries.lean): every region's output array is ONE entry-by-entry function of its
  input arrays (Proof/Linear*.lean, Proof/Edge*.lean, Proof/Combine*.lean: the blocks of a region tile its output and
  each block is that function restricted), and the host stretches apply their gathers and scatter-adds to those arrays
  whole.  The reference's result is its generated run's term, grouped into named stages (Proof/RefStages.lean).  The
  two compositions are the same function of the arguments (Proof/Bridge.lean over Proof/LibEntryForms.lean): an
  entry-by-entry form is the host's whole-array operation at the exact values.  No law of arithmetic joins the two
  sides — the same products and sums are taken in the same order — so the inputs' finiteness is not used.
-/
import proofs.«109362_j46969762349063_1_alg».proof.Defs
import proofs.«109362_j46969762349063_1_alg».proof.Proof.Gen.Kernel
import proofs.«109362_j46969762349063_1_alg».proof.Proof.Gen.Kernel.Frame
import proofs.«109362_j46969762349063_1_alg».proof.Proof.Gen.KernelIdeal
import proofs.«109362_j46969762349063_1_alg».proof.Proof.Gen.KernelIdeal.Frame
import proofs.«109362_j46969762349063_1_alg».proof.Proof.Gen.ReferenceIdeal
import proofs.«109362_j46969762349063_1_alg».proof.Proof.Gen.ReferenceIdeal.Run
import proofs.«109362_j46969762349063_1_alg».proof.Proof.Gen.Pre_finite_inputs
import proofs.«109362_j46969762349063_1_alg».proof.Proof.KernelRun
import proofs.«109362_j46969762349063_1_alg».proof.Proof.Boundaries
import proofs.«109362_j46969762349063_1_alg».proof.Proof.Bridge
import proofs.«109362_j46969762349063_1_alg».proof.Proof.RefStages
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with the result array at the network of the argument arrays: the kernel by its
    boundaries, the reference by its run's term, the two networks one function. -/
theorem algebraic : Cert.algebraic_KernelIdeal_ReferenceIdeal := by
  intro m ρ m' ρ' _ hagree
  refine ⟨fun c => Cert.Bridge.kernelNetwork (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Boundaries.result m ρ c), (h c).2⟩)
      (Cert.KernelIdeal.Bridge.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Stages.reference_result m' c, (hagree c).1, (hagree c).2.1, (hagree c).2.2.1, (hagree c).2.2.2.1,
      (hagree c).2.2.2.2.1, (hagree c).2.2.2.2.2.1, (hagree c).2.2.2.2.2.2]
    exact (Cert.Bridge.kernelNetwork_eq _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
